-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x300 : Shape := ⟨2, ![100000, 300]⟩
abbrev S2x200000 : Shape := ⟨2, ![2, 200000]⟩
abbrev S200000x2 : Shape := ⟨2, ![200000, 2]⟩
abbrev S100000 : Shape := ⟨1, ![100000]⟩
abbrev S6x300 : Shape := ⟨2, ![6, 300]⟩
abbrev S3x300 : Shape := ⟨2, ![3, 300]⟩
abbrev S300x600 : Shape := ⟨2, ![300, 600]⟩
abbrev S600 : Shape := ⟨1, ![600]⟩
abbrev S600x300 : Shape := ⟨2, ![600, 300]⟩
abbrev S300 : Shape := ⟨1, ![300]⟩
abbrev S300x300 : Shape := ⟨2, ![300, 300]⟩
abbrev S_ : Shape := ⟨0, ![]⟩

class Facts : Prop where
  bcast_S_S100000x300 : S_.BroadcastsInDim S100000x300 (![] : Fin 0 → Fin S100000x300.rank)
  reducesTo_S100000x300_S_d0_1 : S100000x300.ReducesTo [0, 1] S_
  h_S_ : 0 < S_.numel
  bcast_S_S6x300 : S_.BroadcastsInDim S6x300 (![] : Fin 0 → Fin S6x300.rank)
  reducesTo_S6x300_S_d0_1 : S6x300.ReducesTo [0, 1] S_
  bcast_S_S3x300 : S_.BroadcastsInDim S3x300 (![] : Fin 0 → Fin S3x300.rank)
  reducesTo_S3x300_S_d0_1 : S3x300.ReducesTo [0, 1] S_
  bcast_S_S300x600 : S_.BroadcastsInDim S300x600 (![] : Fin 0 → Fin S300x600.rank)
  reducesTo_S300x600_S_d0_1 : S300x600.ReducesTo [0, 1] S_
  bcast_S_S600 : S_.BroadcastsInDim S600 (![] : Fin 0 → Fin S600.rank)
  reducesTo_S600_S_d0 : S600.ReducesTo [0] S_
  bcast_S_S600x300 : S_.BroadcastsInDim S600x300 (![] : Fin 0 → Fin S600x300.rank)
  reducesTo_S600x300_S_d0_1 : S600x300.ReducesTo [0, 1] S_
  bcast_S_S300 : S_.BroadcastsInDim S300 (![] : Fin 0 → Fin S300.rank)
  reducesTo_S300_S_d0 : S300.ReducesTo [0] S_
  bcast_S_S300x300 : S_.BroadcastsInDim S300x300 (![] : Fin 0 → Fin S300x300.rank)
  reducesTo_S300x300_S_d0_1 : S300x300.ReducesTo [0, 1] S_

variable [Facts]

def fn_part2 {F : FTy → Type} [FloatOps F] (main_arg10 : FVec F S300x300 .f32) (main_arg11 : FVec F S300 .f32) (main_v33 : IVec S_ 1) : IVec S_ 1 :=
  let main_v34 : FVec F S300x300 .f32 := Host.absf main_arg10
  let main_cst_12 : FVec F S_ .f32 := constant S_ .f32 0x7F800000#32
  let main_v35 : FVec F S300x300 .f32 := broadcastInDim S300x300 ![] bcast_S_S300x300 main_cst_12
  let main_v36 : IVec S300x300 1 := cmpf .olt main_v34 main_v35
  let main_c_13 : IVec S_ 1 := constantI S_ 1 1#1
  let main_v37 : IVec S_ 1 := (fun x v => Host.reduce IntOp.andi x v reducesTo_S300x300_S_d0_1 h_S_) main_v36 main_c_13
  let main_v38 : IVec S_ 1 := andi main_v33 main_v37
  let main_v39 : FVec F S300 .f32 := Host.absf main_arg11
  let main_cst_14 : FVec F S_ .f32 := constant S_ .f32 0x7F800000#32
  let main_v40 : FVec F S300 .f32 := broadcastInDim S300 ![] bcast_S_S300 main_cst_14
  let main_v41 : IVec S300 1 := cmpf .olt main_v39 main_v40
  let main_c_15 : IVec S_ 1 := constantI S_ 1 1#1
  let main_v42 : IVec S_ 1 := (fun x v => Host.reduce IntOp.andi x v reducesTo_S300_S_d0 h_S_) main_v41 main_c_15
  let main_v43 : IVec S_ 1 := andi main_v38 main_v42
  main_v43

def fn_part1 {F : FTy → Type} [FloatOps F] (main_arg7 : FVec F S600 .f32) (main_arg8 : FVec F S600x300 .f32) (main_arg9 : FVec F S300 .f32) (main_arg10 : FVec F S300x300 .f32) (main_arg11 : FVec F S300 .f32) (main_v13 : IVec S_ 1) (main_v16 : IVec S300x600 1) : IVec S_ 1 :=
  let main_c_5 : IVec S_ 1 := constantI S_ 1 1#1
  let main_v17 : IVec S_ 1 := (fun x v => Host.reduce IntOp.andi x v reducesTo_S300x600_S_d0_1 h_S_) main_v16 main_c_5
  let main_v18 : IVec S_ 1 := andi main_v13 main_v17
  let main_v19 : FVec F S600 .f32 := Host.absf main_arg7
  let main_cst_6 : FVec F S_ .f32 := constant S_ .f32 0x7F800000#32
  let main_v20 : FVec F S600 .f32 := broadcastInDim S600 ![] bcast_S_S600 main_cst_6
  let main_v21 : IVec S600 1 := cmpf .olt main_v19 main_v20
  let main_c_7 : IVec S_ 1 := constantI S_ 1 1#1
  let main_v22 : IVec S_ 1 := (fun x v => Host.reduce IntOp.andi x v reducesTo_S600_S_d0 h_S_) main_v21 main_c_7
  let main_v23 : IVec S_ 1 := andi main_v18 main_v22
  let main_v24 : FVec F S600x300 .f32 := Host.absf main_arg8
  let main_cst_8 : FVec F S_ .f32 := constant S_ .f32 0x7F800000#32
  let main_v25 : FVec F S600x300 .f32 := broadcastInDim S600x300 ![] bcast_S_S600x300 main_cst_8
  let main_v26 : IVec S600x300 1 := cmpf .olt main_v24 main_v25
  let main_c_9 : IVec S_ 1 := constantI S_ 1 1#1
  let main_v27 : IVec S_ 1 := (fun x v => Host.reduce IntOp.andi x v reducesTo_S600x300_S_d0_1 h_S_) main_v26 main_c_9
  let main_v28 : IVec S_ 1 := andi main_v23 main_v27
  let main_v29 : FVec F S300 .f32 := Host.absf main_arg9
  let main_cst_10 : FVec F S_ .f32 := constant S_ .f32 0x7F800000#32
  let main_v30 : FVec F S300 .f32 := broadcastInDim S300 ![] bcast_S_S300 main_cst_10
  let main_v31 : IVec S300 1 := cmpf .olt main_v29 main_v30
  let main_c_11 : IVec S_ 1 := constantI S_ 1 1#1
  let main_v32 : IVec S_ 1 := (fun x v => Host.reduce IntOp.andi x v reducesTo_S300_S_d0 h_S_) main_v31 main_c_11
  let main_v33 : IVec S_ 1 := andi main_v28 main_v32
  fn_part2 (F := F) main_arg10 main_arg11 main_v33

def fn {F : FTy → Type} [FloatOps F] (main_arg0 : FVec F S100000x300 .f32) (main_arg1 : IVec S2x200000 32) (main_arg2 : IVec S200000x2 32) (main_arg3 : IVec S100000 32) (main_arg4 : FVec F S6x300 .f32) (main_arg5 : FVec F S3x300 .f32) (main_arg6 : FVec F S300x600 .f32) (main_arg7 : FVec F S600 .f32) (main_arg8 : FVec F S600x300 .f32) (main_arg9 : FVec F S300 .f32) (main_arg10 : FVec F S300x300 .f32) (main_arg11 : FVec F S300 .f32) : IVec S_ 1 :=
  let main_v0 : FVec F S100000x300 .f32 := Host.absf main_arg0
  let main_cst : FVec F S_ .f32 := constant S_ .f32 0x7F800000#32
  let main_v1 : FVec F S100000x300 .f32 := broadcastInDim S100000x300 ![] bcast_S_S100000x300 main_cst
  let main_v2 : IVec S100000x300 1 := cmpf .olt main_v0 main_v1
  let main_c : IVec S_ 1 := constantI S_ 1 1#1
  let main_v3 : IVec S_ 1 := (fun x v => Host.reduce IntOp.andi x v reducesTo_S100000x300_S_d0_1 h_S_) main_v2 main_c
  let main_v4 : FVec F S6x300 .f32 := Host.absf main_arg4
  let main_cst_0 : FVec F S_ .f32 := constant S_ .f32 0x7F800000#32
  let main_v5 : FVec F S6x300 .f32 := broadcastInDim S6x300 ![] bcast_S_S6x300 main_cst_0
  let main_v6 : IVec S6x300 1 := cmpf .olt main_v4 main_v5
  let main_c_1 : IVec S_ 1 := constantI S_ 1 1#1
  let main_v7 : IVec S_ 1 := (fun x v => Host.reduce IntOp.andi x v reducesTo_S6x300_S_d0_1 h_S_) main_v6 main_c_1
  let main_v8 : IVec S_ 1 := andi main_v3 main_v7
  let main_v9 : FVec F S3x300 .f32 := Host.absf main_arg5
  let main_cst_2 : FVec F S_ .f32 := constant S_ .f32 0x7F800000#32
  let main_v10 : FVec F S3x300 .f32 := broadcastInDim S3x300 ![] bcast_S_S3x300 main_cst_2
  let main_v11 : IVec S3x300 1 := cmpf .olt main_v9 main_v10
  let main_c_3 : IVec S_ 1 := constantI S_ 1 1#1
  let main_v12 : IVec S_ 1 := (fun x v => Host.reduce IntOp.andi x v reducesTo_S3x300_S_d0_1 h_S_) main_v11 main_c_3
  let main_v13 : IVec S_ 1 := andi main_v8 main_v12
  let main_v14 : FVec F S300x600 .f32 := Host.absf main_arg6
  let main_cst_4 : FVec F S_ .f32 := constant S_ .f32 0x7F800000#32
  let main_v15 : FVec F S300x600 .f32 := broadcastInDim S300x600 ![] bcast_S_S300x600 main_cst_4
  let main_v16 : IVec S300x600 1 := cmpf .olt main_v14 main_v15
  fn_part1 (F := F) main_arg7 main_arg8 main_arg9 main_arg10 main_arg11 main_v13 main_v16
-- ==== Kernel.lean ====
abbrev S100000x300 : Shape := ⟨2, ![100000, 300]⟩
abbrev S2x200000 : Shape := ⟨2, ![2, 200000]⟩
abbrev S200000x2 : Shape := ⟨2, ![200000, 2]⟩
abbrev S100000 : Shape := ⟨1, ![100000]⟩
abbrev S6x300 : Shape := ⟨2, ![6, 300]⟩
abbrev S3x300 : Shape := ⟨2, ![3, 300]⟩
abbrev S300x600 : Shape := ⟨2, ![300, 600]⟩
abbrev S600 : Shape := ⟨1, ![600]⟩
abbrev S600x300 : Shape := ⟨2, ![600, 300]⟩
abbrev S300 : Shape := ⟨1, ![300]⟩
abbrev S300x300 : Shape := ⟨2, ![300, 300]⟩
abbrev S1x200000 : Shape := ⟨2, ![1, 200000]⟩
abbrev S200000 : Shape := ⟨1, ![200000]⟩
abbrev S300000 : Shape := ⟨1, ![300000]⟩
abbrev S_ : Shape := ⟨0, ![]⟩
abbrev S100000x2 : Shape := ⟨2, ![100000, 2]⟩
abbrev S300000x2 : Shape := ⟨2, ![300000, 2]⟩
abbrev S300000x1 : Shape := ⟨2, ![300000, 1]⟩
abbrev S300000x300 : Shape := ⟨2, ![300000, 300]⟩
abbrev S1x600 : Shape := ⟨2, ![1, 600]⟩
abbrev S1x300 : Shape := ⟨2, ![1, 300]⟩
abbrev S2000x300 : Shape := ⟨2, ![2000, 300]⟩
abbrev S2000x600 : Shape := ⟨2, ![2000, 600]⟩
abbrev S2048x300 : Shape := ⟨2, ![2048, 300]⟩
abbrev S100000x1 : Shape := ⟨2, ![100000, 1]⟩

abbrev nBuf : Space → Nat
  | .hbm => 85
  | .vmem => 20
  | .smem => 0
  | _ => 0

abbrev bufTy : (tb : Table) → Fin (tcTables nBuf tb) → BufTy
  | .hbm, ⟨0, _⟩ => ⟨S100000x300, .f32⟩
  | .hbm, ⟨1, _⟩ => ⟨S2x200000, .i32⟩
  | .hbm, ⟨2, _⟩ => ⟨S200000x2, .i32⟩
  | .hbm, ⟨3, _⟩ => ⟨S100000, .i32⟩
  | .hbm, ⟨4, _⟩ => ⟨S6x300, .f32⟩
  | .hbm, ⟨5, _⟩ => ⟨S3x300, .f32⟩
  | .hbm, ⟨6, _⟩ => ⟨S300x600, .f32⟩
  | .hbm, ⟨7, _⟩ => ⟨S600, .f32⟩
  | .hbm, ⟨8, _⟩ => ⟨S600x300, .f32⟩
  | .hbm, ⟨9, _⟩ => ⟨S300, .f32⟩
  | .hbm, ⟨10, _⟩ => ⟨S300x300, .f32⟩
  | .hbm, ⟨11, _⟩ => ⟨S300, .f32⟩
  | .hbm, ⟨12, _⟩ => ⟨S100000, .i32⟩
  | .hbm, ⟨13, _⟩ => ⟨S1x200000, .i32⟩
  | .hbm, ⟨14, _⟩ => ⟨S200000, .i32⟩
  | .hbm, ⟨15, _⟩ => ⟨S300000, .i32⟩
  | .hbm, ⟨16, _⟩ => ⟨S1x200000, .i32⟩
  | .hbm, ⟨17, _⟩ => ⟨S200000, .i32⟩
  | .hbm, ⟨18, _⟩ => ⟨S300000, .i32⟩
  | .hbm, ⟨19, _⟩ => ⟨S_, .i32⟩
  | .hbm, ⟨20, _⟩ => ⟨S100000x2, .i32⟩
  | .hbm, ⟨21, _⟩ => ⟨S300000x2, .i32⟩
  | .hbm, ⟨22, _⟩ => ⟨S300000x1, .i32⟩
  | .hbm, ⟨23, _⟩ => ⟨S300000, .i32⟩
  | .hbm, ⟨24, _⟩ => ⟨S_, .i32⟩
  | .hbm, ⟨25, _⟩ => ⟨S300000, .i32⟩
  | .hbm, ⟨26, _⟩ => ⟨S300000, .i1⟩
  | .hbm, ⟨27, _⟩ => ⟨S_, .i32⟩
  | .hbm, ⟨28, _⟩ => ⟨S300000, .i32⟩
  | .hbm, ⟨29, _⟩ => ⟨S300000, .i32⟩
  | .hbm, ⟨30, _⟩ => ⟨S300000, .i32⟩
  | .hbm, ⟨31, _⟩ => ⟨S300000x1, .i32⟩
  | .hbm, ⟨32, _⟩ => ⟨S300000x300, .f32⟩
  | .hbm, ⟨33, _⟩ => ⟨S300000x1, .i32⟩
  | .hbm, ⟨34, _⟩ => ⟨S300000, .i32⟩
  | .hbm, ⟨35, _⟩ => ⟨S_, .i32⟩
  | .hbm, ⟨36, _⟩ => ⟨S300000, .i32⟩
  | .hbm, ⟨37, _⟩ => ⟨S300000, .i1⟩
  | .hbm, ⟨38, _⟩ => ⟨S_, .i32⟩
  | .hbm, ⟨39, _⟩ => ⟨S300000, .i32⟩
  | .hbm, ⟨40, _⟩ => ⟨S300000, .i32⟩
  | .hbm, ⟨41, _⟩ => ⟨S300000, .i32⟩
  | .hbm, ⟨42, _⟩ => ⟨S300000x1, .i32⟩
  | .hbm, ⟨43, _⟩ => ⟨S300000x300, .f32⟩
  | .hbm, ⟨44, _⟩ => ⟨S300000x300, .f32⟩
  | .hbm, ⟨45, _⟩ => ⟨S_, .i32⟩
  | .hbm, ⟨46, _⟩ => ⟨S300000, .i32⟩
  | .hbm, ⟨47, _⟩ => ⟨S300000, .i1⟩
  | .hbm, ⟨48, _⟩ => ⟨S_, .i32⟩
  | .hbm, ⟨49, _⟩ => ⟨S300000, .i32⟩
  | .hbm, ⟨50, _⟩ => ⟨S300000, .i32⟩
  | .hbm, ⟨51, _⟩ => ⟨S300000, .i32⟩
  | .hbm, ⟨52, _⟩ => ⟨S300000x1, .i32⟩
  | .hbm, ⟨53, _⟩ => ⟨S300000x300, .f32⟩
  | .hbm, ⟨54, _⟩ => ⟨S300000x300, .f32⟩
  | .hbm, ⟨55, _⟩ => ⟨S_, .f32⟩
  | .hbm, ⟨56, _⟩ => ⟨S100000x300, .f32⟩
  | .hbm, ⟨57, _⟩ => ⟨S300000x1, .i32⟩
  | .hbm, ⟨58, _⟩ => ⟨S100000x300, .f32⟩
  | .hbm, ⟨59, _⟩ => ⟨S1x600, .f32⟩
  | .hbm, ⟨60, _⟩ => ⟨S1x300, .f32⟩
  | .hbm, ⟨61, _⟩ => ⟨S100000x300, .f32⟩
  | .hbm, ⟨62, _⟩ => ⟨S_, .i32⟩
  | .hbm, ⟨63, _⟩ => ⟨S300000, .i32⟩
  | .hbm, ⟨64, _⟩ => ⟨S300000, .i1⟩
  | .hbm, ⟨65, _⟩ => ⟨S_, .i32⟩
  | .hbm, ⟨66, _⟩ => ⟨S300000, .i32⟩
  | .hbm, ⟨67, _⟩ => ⟨S300000, .i32⟩
  | .hbm, ⟨68, _⟩ => ⟨S300000, .i32⟩
  | .hbm, ⟨69, _⟩ => ⟨S300000x1, .i32⟩
  | .hbm, ⟨70, _⟩ => ⟨S300000x300, .f32⟩
  | .hbm, ⟨71, _⟩ => ⟨S300000x300, .f32⟩
  | .hbm, ⟨72, _⟩ => ⟨S_, .f32⟩
  | .hbm, ⟨73, _⟩ => ⟨S100000x300, .f32⟩
  | .hbm, ⟨74, _⟩ => ⟨S300000x1, .i32⟩
  | .hbm, ⟨75, _⟩ => ⟨S100000x300, .f32⟩
  | .hbm, ⟨76, _⟩ => ⟨S1x600, .f32⟩
  | .hbm, ⟨77, _⟩ => ⟨S1x300, .f32⟩
  | .hbm, ⟨78, _⟩ => ⟨S100000x300, .f32⟩
  | .hbm, ⟨79, _⟩ => ⟨S_, .f32⟩
  | .hbm, ⟨80, _⟩ => ⟨S2048x300, .f32⟩
  | .hbm, ⟨81, _⟩ => ⟨S100000x1, .i32⟩
  | .hbm, ⟨82, _⟩ => ⟨S2048x300, .f32⟩
  | .hbm, ⟨83, _⟩ => ⟨S1x300, .f32⟩
  | .hbm, ⟨84, _⟩ => ⟨S2048x300, .f32⟩
  | .local _ .vmem, ⟨0, _⟩ => ⟨S2000x300, .f32⟩
  | .local _ .vmem, ⟨1, _⟩ => ⟨S2000x300, .f32⟩
  | .local _ .vmem, ⟨2, _⟩ => ⟨S300x600, .f32⟩
  | .local _ .vmem, ⟨3, _⟩ => ⟨S1x600, .f32⟩
  | .local _ .vmem, ⟨4, _⟩ => ⟨S600x300, .f32⟩
  | .local _ .vmem, ⟨5, _⟩ => ⟨S1x300, .f32⟩
  | .local _ .vmem, ⟨6, _⟩ => ⟨S2000x300, .f32⟩
  | .local _ .vmem, ⟨7, _⟩ => ⟨S2000x300, .f32⟩
  | .local _ .vmem, ⟨8, _⟩ => ⟨S2000x300, .f32⟩
  | .local _ .vmem, ⟨9, _⟩ => ⟨S2000x300, .f32⟩
  | .local _ .vmem, ⟨10, _⟩ => ⟨S300x600, .f32⟩
  | .local _ .vmem, ⟨11, _⟩ => ⟨S1x600, .f32⟩
  | .local _ .vmem, ⟨12, _⟩ => ⟨S600x300, .f32⟩
  | .local _ .vmem, ⟨13, _⟩ => ⟨S1x300, .f32⟩
  | .local _ .vmem, ⟨14, _⟩ => ⟨S2000x300, .f32⟩
  | .local _ .vmem, ⟨15, _⟩ => ⟨S2000x300, .f32⟩
  | .local _ .vmem, ⟨16, _⟩ => ⟨S2048x300, .f32⟩
  | .local _ .vmem, ⟨17, _⟩ => ⟨S300x300, .f32⟩
  | .local _ .vmem, ⟨18, _⟩ => ⟨S1x300, .f32⟩
  | .local _ .vmem, ⟨19, _⟩ => ⟨S2048x300, .f32⟩
  | _, _ => ⟨S100000x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_0 : Ref sig .tc := ⟨.hbm, 24, rfl⟩
abbrev main_v11 : Ref sig .tc := ⟨.hbm, 25, rfl⟩
abbrev main_v12 : Ref sig .tc := ⟨.hbm, 26, rfl⟩
abbrev main_c_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_2 : Ref sig .tc := ⟨.hbm, 35, rfl⟩
abbrev main_v20 : Ref sig .tc := ⟨.hbm, 36, rfl⟩
abbrev main_v21 : Ref sig .tc := ⟨.hbm, 37, rfl⟩
abbrev main_c_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_6 : Ref sig .tc := ⟨.hbm, 62, rfl⟩
abbrev main_v42 : Ref sig .tc := ⟨.hbm, 63, rfl⟩
abbrev main_v43 : Ref sig .tc := ⟨.hbm, 64, rfl⟩
abbrev main_c_7 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_8 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_9 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem1_0 : DmaSem sig := 17
abbrev cc2_sem2_0 : DmaSem sig := 18
abbrev cc2_sem3_0 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S300x600 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x600 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S600x300 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x300 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x300 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x300 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S300x600 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x600 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S600x300 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x300 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x300 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S2048x300 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S300x300 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x300 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2048x300 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  slices_S2x200000_S1x200000_0_0 : S2x200000.Slices ![0, 0] S1x200000
  shapeCasts_S1x200000_S200000 : S1x200000.ShapeCasts S200000
  concatenates_S200000_S100000_S300000_d0 : Shape.Concatenates [S200000, S100000] S300000 0
  slices_S2x200000_S1x200000_1_0 : S2x200000.Slices ![1, 0] S1x200000
  bcast_S_S100000x2 : S_.BroadcastsInDim S100000x2 (![] : Fin 0 → Fin S100000x2.rank)
  concatenates_S200000x2_S100000x2_S300000x2_d0 : Shape.Concatenates [S200000x2, S100000x2] S300000x2 0
  slices_S300000x2_S300000x1_0_0 : S300000x2.Slices ![0, 0] S300000x1
  shapeCasts_S300000x1_S300000 : S300000x1.ShapeCasts S300000
  bcast_S_S300000 : S_.BroadcastsInDim S300000 (![] : Fin 0 → Fin S300000.rank)
  bcast_S300000_S300000x1_0 : S300000.BroadcastsInDim S300000x1 (![0] : Fin 1 → Fin S300000x1.rank)
  slices_S300000x2_S300000x1_0_1 : S300000x2.Slices ![0, 1] S300000x1
  bcast_S_S100000x300 : S_.BroadcastsInDim S100000x300 (![] : Fin 0 → Fin S100000x300.rank)
  shapeCasts_S600_S1x600 : S600.ShapeCasts S1x600
  shapeCasts_S300_S1x300 : S300.ShapeCasts S1x300
  inb_S2000x300_S2000x300_0_0 : ∀ a, (![0, 0] : Fin 2 → Nat) a + S2000x300.size a ≤ S2000x300.size a
  h_S2000x300 : 0 < S2000x300.numel
  shapeCasts_S2000x300_S2000x300 : S2000x300.ShapeCasts S2000x300
  bitsLt_bf16_f32 : FTy.bits .bf16 < FTy.bits .f32
  inb_S300x600_S300x600_0_0 : ∀ a, (![0, 0] : Fin 2 → Nat) a + S300x600.size a ≤ S300x600.size a
  h_S300x600 : 0 < S300x600.numel
  inb_S1x600_S1x600_0_0 : ∀ a, (![0, 0] : Fin 2 → Nat) a + S1x600.size a ≤ S1x600.size a
  h_S1x600 : 0 < S1x600.numel
  shapeCasts_S1x600_S1x600 : S1x600.ShapeCasts S1x600
  broadcasts_S1x600_S2000x600 : S1x600.Broadcasts S2000x600
  inb_S600x300_S600x300_0_0 : ∀ a, (![0, 0] : Fin 2 → Nat) a + S600x300.size a ≤ S600x300.size a
  h_S600x300 : 0 < S600x300.numel
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S2000x300 : S1x300.Broadcasts S2000x300
  bcast_S_S2048x300 : S_.BroadcastsInDim S2048x300 (![] : Fin 0 → Fin S2048x300.rank)
  bcast_S100000_S100000x1_0 : S100000.BroadcastsInDim S100000x1 (![0] : Fin 1 → Fin S100000x1.rank)
  inb_S2048x300_S2048x300_0_0 : ∀ a, (![0, 0] : Fin 2 → Nat) a + S2048x300.size a ≤ S2048x300.size a
  h_S2048x300 : 0 < S2048x300.numel
  shapeCasts_S2048x300_S2048x300 : S2048x300.ShapeCasts S2048x300
  inb_S300x300_S300x300_0_0 : ∀ a, (![0, 0] : Fin 2 → Nat) a + S300x300.size a ≤ S300x300.size a
  h_S300x300 : 0 < S300x300.numel
  broadcasts_S1x300_S2048x300 : S1x300.Broadcasts S2048x300
  gather_S6x300_S300000x1_S300000x300_1_0_n_n_0_1_1300_wf : GatherDims.WF S6x300 S300000x1 S300000x300 [1] [0] [] [0] [] 1 ![1, 300]
  gather_S3x300_S300000x1_S300000x300_1_0_n_n_0_1_1300_wf : GatherDims.WF S3x300 S300000x1 S300000x300 [1] [0] [] [0] [] 1 ![1, 300]
  gather_S100000x300_S300000x1_S300000x300_1_0_n_n_0_1_1300_wf : GatherDims.WF S100000x300 S300000x1 S300000x300 [1] [0] [] [0] [] 1 ![1, 300]
  scatter_S100000x300_S300000x1_S300000x300_1_0_0_1_wf : ScatterDims.WF S100000x300 S300000x1 S300000x300 [1] [0] [0] 1
  dot_S2000x300_S300x600_S2000x600_1_0_0_1_n_n_wf : DotDims.WF S2000x300 S300x600 S2000x600 [1] [0] [0] [1] [] []
  dot_S2000x600_S600x300_S2000x300_1_0_0_1_n_n_wf : DotDims.WF S2000x600 S600x300 S2000x300 [1] [0] [0] [1] [] []
  scatter_S2048x300_S100000x1_S100000x300_1_0_0_1_wf : ScatterDims.WF S2048x300 S100000x1 S100000x300 [1] [0] [0] 1
  dot_S2048x300_S300x300_S2048x300_1_0_0_1_n_n_wf : DotDims.WF S2048x300 S300x300 S2048x300 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x300.size a ≤ S100000x300.size a
  hwx0_0 : ∀ i : grid0.Coords, EltTy.bits .f32 = 32 ∨ (Rect.block (s := S100000x300) S2000x300.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S300x600.size a ≤ S300x600.size a
  hwx0_1 : ∀ i : grid0.Coords, EltTy.bits .f32 = 32 ∨ (Rect.block (s := S300x600) S300x600.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x600.size a ≤ S1x600.size a
  hwx0_2 : ∀ i : grid0.Coords, EltTy.bits .f32 = 32 ∨ (Rect.block (s := S1x600) S1x600.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S600x300.size a ≤ S600x300.size a
  hwx0_3 : ∀ i : grid0.Coords, EltTy.bits .f32 = 32 ∨ (Rect.block (s := S600x300) S600x300.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x300.size a ≤ S1x300.size a
  hwx0_4 : ∀ i : grid0.Coords, EltTy.bits .f32 = 32 ∨ (Rect.block (s := S1x300) S1x300.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x300.size a ≤ S100000x300.size a
  hwx0_5 : ∀ i : grid0.Coords, EltTy.bits .f32 = 32 ∨ (Rect.block (s := S100000x300) S2000x300.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x300.size a ≤ S100000x300.size a
  hwx1_0 : ∀ i : grid1.Coords, EltTy.bits .f32 = 32 ∨ (Rect.block (s := S100000x300) S2000x300.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S300x600.size a ≤ S300x600.size a
  hwx1_1 : ∀ i : grid1.Coords, EltTy.bits .f32 = 32 ∨ (Rect.block (s := S300x600) S300x600.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x600.size a ≤ S1x600.size a
  hwx1_2 : ∀ i : grid1.Coords, EltTy.bits .f32 = 32 ∨ (Rect.block (s := S1x600) S1x600.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S600x300.size a ≤ S600x300.size a
  hwx1_3 : ∀ i : grid1.Coords, EltTy.bits .f32 = 32 ∨ (Rect.block (s := S600x300) S600x300.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x300.size a ≤ S1x300.size a
  hwx1_4 : ∀ i : grid1.Coords, EltTy.bits .f32 = 32 ∨ (Rect.block (s := S1x300) S1x300.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x300.size a ≤ S100000x300.size a
  hwx1_5 : ∀ i : grid1.Coords, EltTy.bits .f32 = 32 ∨ (Rect.block (s := S100000x300) S2000x300.size (cc1_transform_5 i) (hinb1_5 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S2048x300.size a ≤ S2048x300.size a
  hwx2_0 : ∀ i : grid2.Coords, EltTy.bits .f32 = 32 ∨ (Rect.block (s := S2048x300) S2048x300.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S300x300.size a ≤ S300x300.size a
  hwx2_1 : ∀ i : grid2.Coords, EltTy.bits .f32 = 32 ∨ (Rect.block (s := S300x300) S300x300.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x300.size a ≤ S1x300.size a
  hwx2_2 : ∀ i : grid2.Coords, EltTy.bits .f32 = 32 ∨ (Rect.block (s := S1x300) S1x300.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S2048x300.size a ≤ S2048x300.size a
  hwx2_3 : ∀ i : grid2.Coords, EltTy.bits .f32 = 32 ∨ (Rect.block (s := S2048x300) S2048x300.size (cc2_transform_3 i) (hinb2_3 i)).WholeWords (EltTy.packing .f32)

variable [Facts₀]

def gather_S6x300_S300000x1_S300000x300_1_0_n_n_0_1_1300 : GatherDims S6x300 S300000x1 S300000x300 where
  offsetDims := [1]
  collapsedSliceDims := [0]
  operandBatchingDims := []
  startIndicesBatchingDims := []
  startIndexMap := [0]
  indexVectorDim := 1
  sliceSizes := ![1, 300]
  wf := gather_S6x300_S300000x1_S300000x300_1_0_n_n_0_1_1300_wf
def gather_S3x300_S300000x1_S300000x300_1_0_n_n_0_1_1300 : GatherDims S3x300 S300000x1 S300000x300 where
  offsetDims := [1]
  collapsedSliceDims := [0]
  operandBatchingDims := []
  startIndicesBatchingDims := []
  startIndexMap := [0]
  indexVectorDim := 1
  sliceSizes := ![1, 300]
  wf := gather_S3x300_S300000x1_S300000x300_1_0_n_n_0_1_1300_wf
def gather_S100000x300_S300000x1_S300000x300_1_0_n_n_0_1_1300 : GatherDims S100000x300 S300000x1 S300000x300 where
  offsetDims := [1]
  collapsedSliceDims := [0]
  operandBatchingDims := []
  startIndicesBatchingDims := []
  startIndexMap := [0]
  indexVectorDim := 1
  sliceSizes := ![1, 300]
  wf := gather_S100000x300_S300000x1_S300000x300_1_0_n_n_0_1_1300_wf
def scatter_S100000x300_S300000x1_S300000x300_1_0_0_1 : ScatterDims S100000x300 S300000x1 S300000x300 where
  updateWindowDims := [1]
  insertedWindowDims := [0]
  scatterDimsToOperandDims := [0]
  indexVectorDim := 1
  wf := scatter_S100000x300_S300000x1_S300000x300_1_0_0_1_wf
def dot_S2000x300_S300x600_S2000x600_1_0_0_1_n_n : DotDims S2000x300 S300x600 S2000x600 where
  lhsContracting := [1]
  rhsContracting := [0]
  lhsNonContracting := [0]
  rhsNonContracting := [1]
  lhsBatch := []
  rhsBatch := []
  wf := dot_S2000x300_S300x600_S2000x600_1_0_0_1_n_n_wf
def dot_S2000x600_S600x300_S2000x300_1_0_0_1_n_n : DotDims S2000x600 S600x300 S2000x300 where
  lhsContracting := [1]
  rhsContracting := [0]
  lhsNonContracting := [0]
  rhsNonContracting := [1]
  lhsBatch := []
  rhsBatch := []
  wf := dot_S2000x600_S600x300_S2000x300_1_0_0_1_n_n_wf
def scatter_S2048x300_S100000x1_S100000x300_1_0_0_1 : ScatterDims S2048x300 S100000x1 S100000x300 where
  updateWindowDims := [1]
  insertedWindowDims := [0]
  scatterDimsToOperandDims := [0]
  indexVectorDim := 1
  wf := scatter_S2048x300_S100000x1_S100000x300_1_0_0_1_wf
def dot_S2048x300_S300x300_S2048x300_1_0_0_1_n_n : DotDims S2048x300 S300x300 S2048x300 where
  lhsContracting := [1]
  rhsContracting := [0]
  lhsNonContracting := [0]
  rhsNonContracting := [1]
  lhsBatch := []
  rhsBatch := []
  wf := dot_S2048x300_S300x300_S2048x300_1_0_0_1_n_n_wf

abbrev win0_0 : Pipeline.Window sig grid0 :=
  Pipeline.Window.ofSpec (Memref.whole main_v38) S2000x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S300x600.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v39) S1x600.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S600x300.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v40) S1x300.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v41) S2000x300.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v52) S2000x300.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S300x600.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S1x600.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S600x300.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v54) S1x300.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v55) S2000x300.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v58) S2048x300.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S300x300.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S1x300.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S2048x300.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x300 : Shape := ⟨2, ![100000, 300]⟩
abbrev S2x200000 : Shape := ⟨2, ![2, 200000]⟩
abbrev S200000x2 : Shape := ⟨2, ![200000, 2]⟩
abbrev S100000 : Shape := ⟨1, ![100000]⟩
abbrev S6x300 : Shape := ⟨2, ![6, 300]⟩
abbrev S3x300 : Shape := ⟨2, ![3, 300]⟩
abbrev S300x600 : Shape := ⟨2, ![300, 600]⟩
abbrev S600 : Shape := ⟨1, ![600]⟩
abbrev S600x300 : Shape := ⟨2, ![600, 300]⟩
abbrev S300 : Shape := ⟨1, ![300]⟩
abbrev S300x300 : Shape := ⟨2, ![300, 300]⟩
abbrev S1x200000 : Shape := ⟨2, ![1, 200000]⟩
abbrev S200000 : Shape := ⟨1, ![200000]⟩
abbrev S300000 : Shape := ⟨1, ![300000]⟩
abbrev S_ : Shape := ⟨0, ![]⟩
abbrev S100000x2 : Shape := ⟨2, ![100000, 2]⟩
abbrev S300000x2 : Shape := ⟨2, ![300000, 2]⟩
abbrev S300000x1 : Shape := ⟨2, ![300000, 1]⟩
abbrev S300000x300 : Shape := ⟨2, ![300000, 300]⟩
abbrev S100000x600 : Shape := ⟨2, ![100000, 600]⟩
abbrev S1x600 : Shape := ⟨2, ![1, 600]⟩
abbrev S1x300 : Shape := ⟨2, ![1, 300]⟩
abbrev S2048x300 : Shape := ⟨2, ![2048, 300]⟩
abbrev S100000x1 : Shape := ⟨2, ![100000, 1]⟩

abbrev nBuf : Space → Nat
  | .hbm => 109
  | .vmem => 0
  | .smem => 0
  | _ => 0

abbrev bufTy : (tb : Table) → Fin (tcTables nBuf tb) → BufTy
  | .hbm, ⟨0, _⟩ => ⟨S100000x300, .f32⟩
  | .hbm, ⟨1, _⟩ => ⟨S2x200000, .i32⟩
  | .hbm, ⟨2, _⟩ => ⟨S200000x2, .i32⟩
  | .hbm, ⟨3, _⟩ => ⟨S100000, .i32⟩
  | .hbm, ⟨4, _⟩ => ⟨S6x300, .f32⟩
  | .hbm, ⟨5, _⟩ => ⟨S3x300, .f32⟩
  | .hbm, ⟨6, _⟩ => ⟨S300x600, .f32⟩
  | .hbm, ⟨7, _⟩ => ⟨S600, .f32⟩
  | .hbm, ⟨8, _⟩ => ⟨S600x300, .f32⟩
  | .hbm, ⟨9, _⟩ => ⟨S300, .f32⟩
  | .hbm, ⟨10, _⟩ => ⟨S300x300, .f32⟩
  | .hbm, ⟨11, _⟩ => ⟨S300, .f32⟩
  | .hbm, ⟨12, _⟩ => ⟨S100000, .i32⟩
  | .hbm, ⟨13, _⟩ => ⟨S1x200000, .i32⟩
  | .hbm, ⟨14, _⟩ => ⟨S200000, .i32⟩
  | .hbm, ⟨15, _⟩ => ⟨S300000, .i32⟩
  | .hbm, ⟨16, _⟩ => ⟨S1x200000, .i32⟩
  | .hbm, ⟨17, _⟩ => ⟨S200000, .i32⟩
  | .hbm, ⟨18, _⟩ => ⟨S300000, .i32⟩
  | .hbm, ⟨19, _⟩ => ⟨S_, .i32⟩
  | .hbm, ⟨20, _⟩ => ⟨S100000x2, .i32⟩
  | .hbm, ⟨21, _⟩ => ⟨S300000x2, .i32⟩
  | .hbm, ⟨22, _⟩ => ⟨S300000x1, .i32⟩
  | .hbm, ⟨23, _⟩ => ⟨S300000, .i32⟩
  | .hbm, ⟨24, _⟩ => ⟨S_, .i32⟩
  | .hbm, ⟨25, _⟩ => ⟨S300000, .i32⟩
  | .hbm, ⟨26, _⟩ => ⟨S300000, .i1⟩
  | .hbm, ⟨27, _⟩ => ⟨S_, .i32⟩
  | .hbm, ⟨28, _⟩ => ⟨S300000, .i32⟩
  | .hbm, ⟨29, _⟩ => ⟨S300000, .i32⟩
  | .hbm, ⟨30, _⟩ => ⟨S300000, .i32⟩
  | .hbm, ⟨31, _⟩ => ⟨S300000x1, .i32⟩
  | .hbm, ⟨32, _⟩ => ⟨S300000x300, .f32⟩
  | .hbm, ⟨33, _⟩ => ⟨S300000x1, .i32⟩
  | .hbm, ⟨34, _⟩ => ⟨S300000, .i32⟩
  | .hbm, ⟨35, _⟩ => ⟨S_, .i32⟩
  | .hbm, ⟨36, _⟩ => ⟨S300000, .i32⟩
  | .hbm, ⟨37, _⟩ => ⟨S300000, .i1⟩
  | .hbm, ⟨38, _⟩ => ⟨S_, .i32⟩
  | .hbm, ⟨39, _⟩ => ⟨S300000, .i32⟩
  | .hbm, ⟨40, _⟩ => ⟨S300000, .i32⟩
  | .hbm, ⟨41, _⟩ => ⟨S300000, .i32⟩
  | .hbm, ⟨42, _⟩ => ⟨S300000x1, .i32⟩
  | .hbm, ⟨43, _⟩ => ⟨S300000x300, .f32⟩
  | .hbm, ⟨44, _⟩ => ⟨S300000x300, .f32⟩
  | .hbm, ⟨45, _⟩ => ⟨S_, .i32⟩
  | .hbm, ⟨46, _⟩ => ⟨S300000, .i32⟩
  | .hbm, ⟨47, _⟩ => ⟨S300000, .i1⟩
  | .hbm, ⟨48, _⟩ => ⟨S_, .i32⟩
  | .hbm, ⟨49, _⟩ => ⟨S300000, .i32⟩
  | .hbm, ⟨50, _⟩ => ⟨S300000, .i32⟩
  | .hbm, ⟨51, _⟩ => ⟨S300000, .i32⟩
  | .hbm, ⟨52, _⟩ => ⟨S300000x1, .i32⟩
  | .hbm, ⟨53, _⟩ => ⟨S300000x300, .f32⟩
  | .hbm, ⟨54, _⟩ => ⟨S300000x300, .f32⟩
  | .hbm, ⟨55, _⟩ => ⟨S_, .f32⟩
  | .hbm, ⟨56, _⟩ => ⟨S100000x300, .f32⟩
  | .hbm, ⟨57, _⟩ => ⟨S300000x1, .i32⟩
  | .hbm, ⟨58, _⟩ => ⟨S100000x300, .f32⟩
  | .hbm, ⟨59, _⟩ => ⟨S100000x600, .f32⟩
  | .hbm, ⟨60, _⟩ => ⟨S1x600, .f32⟩
  | .hbm, ⟨61, _⟩ => ⟨S100000x600, .f32⟩
  | .hbm, ⟨62, _⟩ => ⟨S100000x600, .f32⟩
  | .hbm, ⟨63, _⟩ => ⟨S_, .f32⟩
  | .hbm, ⟨64, _⟩ => ⟨S100000x600, .f32⟩
  | .hbm, ⟨65, _⟩ => ⟨S100000x600, .f32⟩
  | .hbm, ⟨66, _⟩ => ⟨S100000x300, .f32⟩
  | .hbm, ⟨67, _⟩ => ⟨S1x300, .f32⟩
  | .hbm, ⟨68, _⟩ => ⟨S100000x300, .f32⟩
  | .hbm, ⟨69, _⟩ => ⟨S100000x300, .f32⟩
  | .hbm, ⟨70, _⟩ => ⟨S_, .f32⟩
  | .hbm, ⟨71, _⟩ => ⟨S100000x300, .f32⟩
  | .hbm, ⟨72, _⟩ => ⟨S100000x300, .f32⟩
  | .hbm, ⟨73, _⟩ => ⟨S_, .i32⟩
  | .hbm, ⟨74, _⟩ => ⟨S300000, .i32⟩
  | .hbm, ⟨75, _⟩ => ⟨S300000, .i1⟩
  | .hbm, ⟨76, _⟩ => ⟨S_, .i32⟩
  | .hbm, ⟨77, _⟩ => ⟨S300000, .i32⟩
  | .hbm, ⟨78, _⟩ => ⟨S300000, .i32⟩
  | .hbm, ⟨79, _⟩ => ⟨S300000, .i32⟩
  | .hbm, ⟨80, _⟩ => ⟨S300000x1, .i32⟩
  | .hbm, ⟨81, _⟩ => ⟨S300000x300, .f32⟩
  | .hbm, ⟨82, _⟩ => ⟨S300000x300, .f32⟩
  | .hbm, ⟨83, _⟩ => ⟨S_, .f32⟩
  | .hbm, ⟨84, _⟩ => ⟨S100000x300, .f32⟩
  | .hbm, ⟨85, _⟩ => ⟨S300000x1, .i32⟩
  | .hbm, ⟨86, _⟩ => ⟨S100000x300, .f32⟩
  | .hbm, ⟨87, _⟩ => ⟨S100000x600, .f32⟩
  | .hbm, ⟨88, _⟩ => ⟨S1x600, .f32⟩
  | .hbm, ⟨89, _⟩ => ⟨S100000x600, .f32⟩
  | .hbm, ⟨90, _⟩ => ⟨S100000x600, .f32⟩
  | .hbm, ⟨91, _⟩ => ⟨S_, .f32⟩
  | .hbm, ⟨92, _⟩ => ⟨S100000x600, .f32⟩
  | .hbm, ⟨93, _⟩ => ⟨S100000x600, .f32⟩
  | .hbm, ⟨94, _⟩ => ⟨S100000x300, .f32⟩
  | .hbm, ⟨95, _⟩ => ⟨S1x300, .f32⟩
  | .hbm, ⟨96, _⟩ => ⟨S100000x300, .f32⟩
  | .hbm, ⟨97, _⟩ => ⟨S100000x300, .f32⟩
  | .hbm, ⟨98, _⟩ => ⟨S_, .f32⟩
  | .hbm, ⟨99, _⟩ => ⟨S100000x300, .f32⟩
  | .hbm, ⟨100, _⟩ => ⟨S100000x300, .f32⟩
  | .hbm, ⟨101, _⟩ => ⟨S_, .f32⟩
  | .hbm, ⟨102, _⟩ => ⟨S2048x300, .f32⟩
  | .hbm, ⟨103, _⟩ => ⟨S100000x1, .i32⟩
  | .hbm, ⟨104, _⟩ => ⟨S2048x300, .f32⟩
  | .hbm, ⟨105, _⟩ => ⟨S2048x300, .f32⟩
  | .hbm, ⟨106, _⟩ => ⟨S1x300, .f32⟩
  | .hbm, ⟨107, _⟩ => ⟨S2048x300, .f32⟩
  | .hbm, ⟨108, _⟩ => ⟨S2048x300, .f32⟩
  | _, _ => ⟨S100000x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_0 : Ref sig .tc := ⟨.hbm, 24, rfl⟩
abbrev main_v11 : Ref sig .tc := ⟨.hbm, 25, rfl⟩
abbrev main_v12 : Ref sig .tc := ⟨.hbm, 26, rfl⟩
abbrev main_c_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_2 : Ref sig .tc := ⟨.hbm, 35, rfl⟩
abbrev main_v20 : Ref sig .tc := ⟨.hbm, 36, rfl⟩
abbrev main_v21 : Ref sig .tc := ⟨.hbm, 37, rfl⟩
abbrev main_c_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_call0_cst : Ref sig .tc := ⟨.hbm, 63, rfl⟩
abbrev main_call0_v0 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call1_cst : Ref sig .tc := ⟨.hbm, 70, rfl⟩
abbrev main_call1_v0 : Ref sig .tc := ⟨.hbm, 71, rfl⟩
abbrev main_v48 : Ref sig .tc := ⟨.hbm, 72, rfl⟩
abbrev main_c_6 : Ref sig .tc := ⟨.hbm, 73, rfl⟩
abbrev main_v49 : Ref sig .tc := ⟨.hbm, 74, rfl⟩
abbrev main_v50 : Ref sig .tc := ⟨.hbm, 75, rfl⟩
abbrev main_c_7 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_8 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_call2_cst : Ref sig .tc := ⟨.hbm, 91, rfl⟩
abbrev main_call2_v0 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_call3_cst : Ref sig .tc := ⟨.hbm, 98, rfl⟩
abbrev main_call3_v0 : Ref sig .tc := ⟨.hbm, 99, rfl⟩
abbrev main_v69 : Ref sig .tc := ⟨.hbm, 100, rfl⟩
abbrev main_cst_9 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩

abbrev nD : Nat := 1
abbrev τ : Topo := Topo.v7x

variable {F : FTy → Type} [FloatOps F]

class Facts₀ : Prop where
  slices_S2x200000_S1x200000_0_0 : S2x200000.Slices ![0, 0] S1x200000
  shapeCasts_S1x200000_S200000 : S1x200000.ShapeCasts S200000
  concatenates_S200000_S100000_S300000_d0 : Shape.Concatenates [S200000, S100000] S300000 0
  slices_S2x200000_S1x200000_1_0 : S2x200000.Slices ![1, 0] S1x200000
  bcast_S_S100000x2 : S_.BroadcastsInDim S100000x2 (![] : Fin 0 → Fin S100000x2.rank)
  concatenates_S200000x2_S100000x2_S300000x2_d0 : Shape.Concatenates [S200000x2, S100000x2] S300000x2 0
  slices_S300000x2_S300000x1_0_0 : S300000x2.Slices ![0, 0] S300000x1
  shapeCasts_S300000x1_S300000 : S300000x1.ShapeCasts S300000
  bcast_S_S300000 : S_.BroadcastsInDim S300000 (![] : Fin 0 → Fin S300000.rank)
  bcast_S300000_S300000x1_0 : S300000.BroadcastsInDim S300000x1 (![0] : Fin 1 → Fin S300000x1.rank)
  slices_S300000x2_S300000x1_0_1 : S300000x2.Slices ![0, 1] S300000x1
  bcast_S_S100000x300 : S_.BroadcastsInDim S100000x300 (![] : Fin 0 → Fin S100000x300.rank)
  bcast_S600_S1x600_1 : S600.BroadcastsInDim S1x600 (![1] : Fin 1 → Fin S1x600.rank)
  bcast_S1x600_S100000x600_0_1 : S1x600.BroadcastsInDim S100000x600 (![0, 1] : Fin 2 → Fin S100000x600.rank)
  bcast_S_S100000x600 : S_.BroadcastsInDim S100000x600 (![] : Fin 0 → Fin S100000x600.rank)
  bcast_S300_S1x300_1 : S300.BroadcastsInDim S1x300 (![1] : Fin 1 → Fin S1x300.rank)
  bcast_S1x300_S100000x300_0_1 : S1x300.BroadcastsInDim S100000x300 (![0, 1] : Fin 2 → Fin S100000x300.rank)
  bcast_S_S2048x300 : S_.BroadcastsInDim S2048x300 (![] : Fin 0 → Fin S2048x300.rank)
  bcast_S100000_S100000x1_0 : S100000.BroadcastsInDim S100000x1 (![0] : Fin 1 → Fin S100000x1.rank)
  bcast_S1x300_S2048x300_0_1 : S1x300.BroadcastsInDim S2048x300 (![0, 1] : Fin 2 → Fin S2048x300.rank)
  gather_S6x300_S300000x1_S300000x300_1_0_n_n_0_1_1300_wf : GatherDims.WF S6x300 S300000x1 S300000x300 [1] [0] [] [0] [] 1 ![1, 300]
  gather_S3x300_S300000x1_S300000x300_1_0_n_n_0_1_1300_wf : GatherDims.WF S3x300 S300000x1 S300000x300 [1] [0] [] [0] [] 1 ![1, 300]
  gather_S100000x300_S300000x1_S300000x300_1_0_n_n_0_1_1300_wf : GatherDims.WF S100000x300 S300000x1 S300000x300 [1] [0] [] [0] [] 1 ![1, 300]
  scatter_S100000x300_S300000x1_S300000x300_1_0_0_1_wf : ScatterDims.WF S100000x300 S300000x1 S300000x300 [1] [0] [0] 1
  dot_S100000x300_S300x600_S100000x600_1_0_0_1_n_n_wf : DotDims.WF S100000x300 S300x600 S100000x600 [1] [0] [0] [1] [] []
  dot_S100000x600_S600x300_S100000x300_1_0_0_1_n_n_wf : DotDims.WF S100000x600 S600x300 S100000x300 [1] [0] [0] [1] [] []
  scatter_S2048x300_S100000x1_S100000x300_1_0_0_1_wf : ScatterDims.WF S2048x300 S100000x1 S100000x300 [1] [0] [0] 1
  dot_S2048x300_S300x300_S2048x300_1_0_0_1_n_n_wf : DotDims.WF S2048x300 S300x300 S2048x300 [1] [0] [0] [1] [] []

variable [Facts₀]

def gather_S6x300_S300000x1_S300000x300_1_0_n_n_0_1_1300 : GatherDims S6x300 S300000x1 S300000x300 where
  offsetDims := [1]
  collapsedSliceDims := [0]
  operandBatchingDims := []
  startIndicesBatchingDims := []
  startIndexMap := [0]
  indexVectorDim := 1
  sliceSizes := ![1, 300]
  wf := gather_S6x300_S300000x1_S300000x300_1_0_n_n_0_1_1300_wf
def gather_S3x300_S300000x1_S300000x300_1_0_n_n_0_1_1300 : GatherDims S3x300 S300000x1 S300000x300 where
  offsetDims := [1]
  collapsedSliceDims := [0]
  operandBatchingDims := []
  startIndicesBatchingDims := []
  startIndexMap := [0]
  indexVectorDim := 1
  sliceSizes := ![1, 300]
  wf := gather_S3x300_S300000x1_S300000x300_1_0_n_n_0_1_1300_wf
def gather_S100000x300_S300000x1_S300000x300_1_0_n_n_0_1_1300 : GatherDims S100000x300 S300000x1 S300000x300 where
  offsetDims := [1]
  collapsedSliceDims := [0]
  operandBatchingDims := []
  startIndicesBatchingDims := []
  startIndexMap := [0]
  indexVectorDim := 1
  sliceSizes := ![1, 300]
  wf := gather_S100000x300_S300000x1_S300000x300_1_0_n_n_0_1_1300_wf
def scatter_S100000x300_S300000x1_S300000x300_1_0_0_1 : ScatterDims S100000x300 S300000x1 S300000x300 where
  updateWindowDims := [1]
  insertedWindowDims := [0]
  scatterDimsToOperandDims := [0]
  indexVectorDim := 1
  wf := scatter_S100000x300_S300000x1_S300000x300_1_0_0_1_wf
def dot_S100000x300_S300x600_S100000x600_1_0_0_1_n_n : DotDims S100000x300 S300x600 S100000x600 where
  lhsContracting := [1]
  rhsContracting := [0]
  lhsNonContracting := [0]
  rhsNonContracting := [1]
  lhsBatch := []
  rhsBatch := []
  wf := dot_S100000x300_S300x600_S100000x600_1_0_0_1_n_n_wf
def dot_S100000x600_S600x300_S100000x300_1_0_0_1_n_n : DotDims S100000x600 S600x300 S100000x300 where
  lhsContracting := [1]
  rhsContracting := [0]
  lhsNonContracting := [0]
  rhsNonContracting := [1]
  lhsBatch := []
  rhsBatch := []
  wf := dot_S100000x600_S600x300_S100000x300_1_0_0_1_n_n_wf
def scatter_S2048x300_S100000x1_S100000x300_1_0_0_1 : ScatterDims S2048x300 S100000x1 S100000x300 where
  updateWindowDims := [1]
  insertedWindowDims := [0]
  scatterDimsToOperandDims := [0]
  indexVectorDim := 1
  wf := scatter_S2048x300_S100000x1_S100000x300_1_0_0_1_wf
def dot_S2048x300_S300x300_S2048x300_1_0_0_1_n_n : DotDims S2048x300 S300x300 S2048x300 where
  lhsContracting := [1]
  rhsContracting := [0]
  lhsNonContracting := [0]
  rhsNonContracting := [1]
  lhsBatch := []
  rhsBatch := []
  wf := dot_S2048x300_S300x300_S2048x300_1_0_0_1_n_n_wf

class Facts : Prop extends Facts₀ where

variable [Facts]
-- ==== Proof.GraphOps.lean ====
/-
  The graph side of the network, shared by both programs: the host operations that turn node features into
  aggregated messages, and the per-graph pooling. Each is ONE function of whole arrays, never opened by the proof:
  both programs apply the same operations to the same inputs, so it is enough that the inputs agree.

  There are 200000 edges and 100000 nodes. Every node also sends a message to itself, so there are 300000 messages:
  message e < 200000 goes from node `edge_index[0, e]` to node `edge_index[1, e]` and carries the attribute pair
  `edge_attr[e]`; message 200000 + v goes from node v to itself with attributes (0, 0). A message's value is the
  sender's feature row plus the sum of two embedding rows looked up by its two attributes (`edgeEmb`); `aggregate h`
  adds, into each node's row, the messages that arrive at it; `pool h` adds each node's row into the row of its graph.
-/
import proofs.«120658_j16338055594643_1_alg».proof.ReferenceIdeal
import proofs.«120658_j16338055594643_1_alg».proof.Proof.Gen.ReferenceIdeal
import Idealize.ShloMosaic.PureOps.Ideal

noncomputable section

namespace Cert.GraphOps

open Cert.ReferenceIdeal Cert.ReferenceIdeal.Gen Idealize.ShloMosaic

/-- The sender of each of the 300000 messages: row 0 of the edge list, then every node once. -/
def senders (ei : (⟨S2x200000, .i32⟩ : BufTy).Contents (Elt Ideal)) : (⟨S300000, .i32⟩ : BufTy).Contents (Elt Ideal) :=
  concatenate S300000 0 [⟨S200000, (shapeCast _ (extractStridedSlice S1x200000 ![0, 0] ei slices_S2x200000_S1x200000_0_0) shapeCasts_S1x200000_S200000)⟩, ⟨S100000, (iotaInDim S100000 32 0)⟩] concatenates_S200000_S100000_S300000_d0

/-- The receiver of each message: row 1 of the edge list, then every node once. -/
def receivers (ei : (⟨S2x200000, .i32⟩ : BufTy).Contents (Elt Ideal)) : (⟨S300000, .i32⟩ : BufTy).Contents (Elt Ideal) :=
  concatenate S300000 0 [⟨S200000, (shapeCast _ (extractStridedSlice S1x200000 ![1, 0] ei slices_S2x200000_S1x200000_1_0) shapeCasts_S1x200000_S200000)⟩, ⟨S100000, (iotaInDim S100000 32 0)⟩] concatenates_S200000_S100000_S300000_d0

/-- The attribute pairs of the 300000 messages: the edges' pairs, then (0, 0) for each self message. -/
def attrs (ea : (⟨S200000x2, .i32⟩ : BufTy).Contents (Elt Ideal)) : (⟨S300000x2, .i32⟩ : BufTy).Contents (Elt Ideal) :=
  concatenate S300000x2 0 [⟨S200000x2, ea⟩, ⟨S100000x2, (broadcastInDim S100000x2 ![] bcast_S_S100000x2 (constantI S_ 32 0#32))⟩] concatenates_S200000x2_S100000x2_S300000x2_d0

/-- A row index with a negative value counted from the end of an axis of `n` rows. -/
def fromEnd (n : BitVec 32) (v : (⟨S300000, .i32⟩ : BufTy).Contents (Elt Ideal)) : (⟨S300000, .i32⟩ : BufTy).Contents (Elt Ideal) :=
  select (cmpi .slt v (broadcastInDim S300000 ![] bcast_S_S300000 (constantI S_ 32 0#32))) (addi v (broadcastInDim S300000 ![] bcast_S_S300000 (constantI S_ 32 n))) v

/-- Each message's embedding: the row of the first table at its first attribute plus the row of the second table at
    its second attribute. -/
def edgeEmb (ea : (⟨S200000x2, .i32⟩ : BufTy).Contents (Elt Ideal)) (e1 : FVec Ideal S6x300 .f32) (e2 : FVec Ideal S3x300 .f32) :
    FVec Ideal S300000x300 .f32 :=
  addf (Host.gather gather_S6x300_S300000x1_S300000x300_1_0_n_n_0_1_1300 e1 (broadcastInDim S300000x1 ![0] bcast_S300000_S300000x1_0 (fromEnd 6#32 (shapeCast _ (extractStridedSlice S300000x1 ![0, 0] (attrs ea) slices_S300000x2_S300000x1_0_0) shapeCasts_S300000x1_S300000))))
    (Host.gather gather_S3x300_S300000x1_S300000x300_1_0_n_n_0_1_1300 e2 (broadcastInDim S300000x1 ![0] bcast_S300000_S300000x1_0 (fromEnd 3#32 (shapeCast _ (extractStridedSlice S300000x1 ![0, 1] (attrs ea) slices_S300000x2_S300000x1_0_1) shapeCasts_S300000x1_S300000))))

/-- Into each node's row, the sum of the messages it receives: the sender's row of `h` plus the message's embedding. -/
def aggregate (h : FVec Ideal S100000x300 .f32) (ei : (⟨S2x200000, .i32⟩ : BufTy).Contents (Elt Ideal))
    (emb : FVec Ideal S300000x300 .f32) : FVec Ideal S100000x300 .f32 :=
  Host.scatterAdd scatter_S100000x300_S300000x1_S300000x300_1_0_0_1 (broadcastInDim S100000x300 ![] bcast_S_S100000x300 (constant S_ .f32 0x00000000#32)) (broadcastInDim S300000x1 ![0] bcast_S300000_S300000x1_0 (receivers ei)) (addf (Host.gather gather_S100000x300_S300000x1_S300000x300_1_0_n_n_0_1_1300 h (broadcastInDim S300000x1 ![0] bcast_S300000_S300000x1_0 (fromEnd 100000#32 (senders ei)))) emb)

/-- Into each graph's row, the sum of the rows of its nodes. -/
def pool (h : FVec Ideal S100000x300 .f32) (batch : (⟨S100000, .i32⟩ : BufTy).Contents (Elt Ideal)) : FVec Ideal S2048x300 .f32 :=
  Host.scatterAdd scatter_S2048x300_S100000x1_S100000x300_1_0_0_1 (broadcastInDim S2048x300 ![] bcast_S_S2048x300 (constant S_ .f32 0x00000000#32)) (broadcastInDim S100000x1 ![0] bcast_S100000_S100000x1_0 batch) h

end Cert.GraphOps

end
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.LibRowVector.lean ====
/-
  A vector of n entries as the single row of a 1×n array, and that row repeated down the r rows of an r×n array, read
  at an index: the re-shaping [n]→[1,n], the reference's broadcast of a vector along the columns of a 1×n array, its
  broadcast of a 1×n row into an r×n array, and its broadcast of a scalar into an array of any shape. Nothing here
  mentions a program.
-/
import Idealize.ShloMosaic.Lib.ValueIdx
import Idealize.ShloMosaic.Lib.Pipeline.Value
import Idealize.ShloMosaic.Lib.ValueLayout
import proofs.«120658_j16338055594643_1_alg».proof.Proof.LibRowReductions

namespace Cert.Lib.RowVector

open Idealize.ShloMosaic Idealize.ShloMosaic.ValueIdx

variable {α : Type} {r n : Nat}

/-- A vector of n entries as the single row of a 1×n array: entry (0, q) is entry q. -/
def asRow (x : (⟨1, ![n]⟩ : Shape).Idx → α) : (⟨2, ![1, n]⟩ : Shape).Idx → α := fun i => x (ix1 (i 1))

theorem asRow_apply (x : (⟨1, ![n]⟩ : Shape).Idx → α) (q : Fin n) : asRow x (ix2 0 q) = x (ix1 q) := rfl

/-- Every index of a 1×n array is in row 0. -/
theorem idx_row (i : (⟨2, ![1, n]⟩ : Shape).Idx) : i = ix2 0 (i 1) := by
  funext d
  match d with
  | ⟨0, _⟩ =>
    have h : (i 0).val < 1 := (i 0).isLt
    exact Fin.ext (by show (i 0).val = 0; omega)
  | ⟨1, _⟩ => rfl

/-- The re-shaping [n]→[1,n] is `asRow`. -/
theorem shapeCast_eq_asRow (x : (⟨1, ![n]⟩ : Shape).Idx → α) (h : (⟨1, ![n]⟩ : Shape).ShapeCasts ⟨2, ![1, n]⟩) :
    shapeCast ⟨2, ![1, n]⟩ x h = asRow x := by
  funext i
  rw [idx_row i]
  exact Cert.Lib.RowReductions.shapeCast_rowvec_apply x h (i 1)

/-- The reference's broadcast of a vector along the columns of a 1×n array is `asRow`. -/
theorem bcastInDim_eq_asRow (x : (⟨1, ![n]⟩ : Shape).Idx → α)
    (h : (⟨1, ![n]⟩ : Shape).BroadcastsInDim ⟨2, ![1, n]⟩ ![1]) :
    broadcastInDim ⟨2, ![1, n]⟩ ![1] h x = asRow x := by
  funext i
  rw [idx_row i]
  refine broadcastInDim_apply _ h x _ _ fun ax => ?_
  match ax with
  | ⟨0, _⟩ =>
    show (i 1).val = if n = 1 then 0 else (i 1).val
    have h1 : (i 1).val < n := (i 1).isLt
    split_ifs with hn
    · omega
    · rfl

/-- A 1×n row broadcast into an r×n array, axis for axis, reads its entry q at every (p, q). -/
theorem bcastInDim_rows_apply (x : (⟨2, ![1, n]⟩ : Shape).Idx → α)
    (h : (⟨2, ![1, n]⟩ : Shape).BroadcastsInDim ⟨2, ![r, n]⟩ ![0, 1]) (p : Fin r) (q : Fin n) :
    broadcastInDim ⟨2, ![r, n]⟩ ![0, 1] h x (ix2 p q) = x (ix2 0 q) :=
  broadcastInDim_apply _ h x _ _ fun ax => by
    match ax with
    | ⟨0, _⟩ =>
      show (0 : Nat) = if (1 : Nat) = 1 then 0 else p.val
      rw [if_pos rfl]
    | ⟨1, _⟩ =>
      show q.val = if n = 1 then 0 else q.val
      split_ifs with hn
      · have := q.isLt; omega
      · rfl

/-- A scalar broadcast into an array of any shape reads the scalar at every index. -/
theorem bcastInDim_scalar_apply {s : Shape} (x : (⟨0, ![]⟩ : Shape).Idx → α)
    (h : (⟨0, ![]⟩ : Shape).BroadcastsInDim s ![]) (i : s.Idx) : broadcastInDim s ![] h x i = x ix0 :=
  broadcastInDim_apply _ h x _ _ fun ax => ax.elim0

end Cert.Lib.RowVector
-- ==== Proof.KernelHost.lean ====
/-
  The host operations of the kernel's program, read at the buffers the three regions are entered with.

  Before the first node-update region the program computes the senders, the receivers and the embeddings of the 300000
  messages and aggregates the input features; between the two node-update regions it aggregates the first region's
  output with the same senders, receivers and embeddings; before the projection region it pools the second region's
  output over the graphs. Each stretch also re-shapes a bias vector into the 1×n row its region reads. These are the same
  operations the reference applies (`aggregate`, `edgeEmb`, `pool`), and a bias vector re-shaped to a row is `asRow`
  of it. No stretch writes an argument, nor anything an earlier stretch computed.
-/
import proofs.«120658_j16338055594643_1_alg».proof.Proof.Gen.KernelIdeal.Frame
import proofs.«120658_j16338055594643_1_alg».proof.Proof.GraphOps
import proofs.«120658_j16338055594643_1_alg».proof.Proof.LibRowVector
import Idealize.ShloMosaic.Lib.StableHlo.Run

set_option maxRecDepth 16384

noncomputable section

namespace Cert.KernelIdeal.HostSide

open Cert.KernelIdeal Cert.KernelIdeal.Gen Idealize.ShloMosaic Idealize.ShloMosaic.TcCoe Idealize.SL.Sem Idealize.ShloMosaic.StableHlo
open Cert.GraphOps Cert.Lib.RowVector

variable (m : (ℓ : Loc nD τ sig) → Buf (Elt Ideal) ℓ) (ρ : Dev nD → PrngReg)

/-! ## The first stretch, from the launch memory -/

theorem W1_senders (c : Dev nD) : W1 m ρ c (Proc.devRef .tc main_v3) = senders (m ((c : Thread nD τ).loc main_arg1)) := by
  dsimp only [W1, hostOps0]
  after_results_simp
  rfl

theorem W1_receivers (c : Dev nD) : W1 m ρ c (Proc.devRef .tc main_v6) = receivers (m ((c : Thread nD τ).loc main_arg1)) := by
  dsimp only [W1, hostOps0]
  after_results_simp
  rfl

theorem W1_emb (c : Dev nD) : W1 m ρ c (Proc.devRef .tc main_v27) = edgeEmb (m ((c : Thread nD τ).loc main_arg2)) (m ((c : Thread nD τ).loc main_arg4)) (m ((c : Thread nD τ).loc main_arg5)) := by
  dsimp only [W1, hostOps0]
  after_results_simp
  rfl

theorem W1_aggr (c : Dev nD) : W1 m ρ c (Proc.devRef .tc main_v38)
    = aggregate (m ((c : Thread nD τ).loc main_arg0)) (m ((c : Thread nD τ).loc main_arg1)) (edgeEmb (m ((c : Thread nD τ).loc main_arg2)) (m ((c : Thread nD τ).loc main_arg4)) (m ((c : Thread nD τ).loc main_arg5))) := by
  dsimp only [W1, hostOps0]
  after_results_simp
  rfl

/-- The first bias vector re-shaped to the 1×600 row the first region reads. -/
theorem W1_row1 (c : Dev nD) : W1 m ρ c (Proc.devRef .tc main_v39) = asRow (m ((c : Thread nD τ).loc main_arg7)) := by
  dsimp only [W1, hostOps0]
  after_results_simp
  exact shapeCast_eq_asRow _ _

/-- The second bias vector re-shaped to a 1×300 row. -/
theorem W1_row2 (c : Dev nD) : W1 m ρ c (Proc.devRef .tc main_v40) = asRow (m ((c : Thread nD τ).loc main_arg9)) := by
  dsimp only [W1, hostOps0]
  after_results_simp
  exact shapeCast_eq_asRow _ _

theorem W1_arg3 (c : Dev nD) : W1 m ρ c (Proc.devRef .tc main_arg3) = (m ((c : Thread nD τ).loc main_arg3)) := by
  dsimp only [W1, hostOps0]
  after_results_simp <;> rfl

theorem W1_arg6 (c : Dev nD) : W1 m ρ c (Proc.devRef .tc main_arg6) = (m ((c : Thread nD τ).loc main_arg6)) := by
  dsimp only [W1, hostOps0]
  after_results_simp <;> rfl

theorem W1_arg7 (c : Dev nD) : W1 m ρ c (Proc.devRef .tc main_arg7) = (m ((c : Thread nD τ).loc main_arg7)) := by
  dsimp only [W1, hostOps0]
  after_results_simp <;> rfl

theorem W1_arg8 (c : Dev nD) : W1 m ρ c (Proc.devRef .tc main_arg8) = (m ((c : Thread nD τ).loc main_arg8)) := by
  dsimp only [W1, hostOps0]
  after_results_simp <;> rfl

theorem W1_arg9 (c : Dev nD) : W1 m ρ c (Proc.devRef .tc main_arg9) = (m ((c : Thread nD τ).loc main_arg9)) := by
  dsimp only [W1, hostOps0]
  after_results_simp <;> rfl

theorem W1_arg10 (c : Dev nD) : W1 m ρ c (Proc.devRef .tc main_arg10) = (m ((c : Thread nD τ).loc main_arg10)) := by
  dsimp only [W1, hostOps0]
  after_results_simp <;> rfl

theorem W1_arg11 (c : Dev nD) : W1 m ρ c (Proc.devRef .tc main_arg11) = (m ((c : Thread nD τ).loc main_arg11)) := by
  dsimp only [W1, hostOps0]
  after_results_simp <;> rfl

/-! ## Through the first region: it writes its output array only -/

theorem W2_v3 (c : Dev nD) : W2 m ρ c (Proc.devRef .tc main_v3) = W1 m ρ c (Proc.devRef .tc main_v3) :=
  W2_of_ne m ρ c main_v3 (by decide)

theorem W2_v6 (c : Dev nD) : W2 m ρ c (Proc.devRef .tc main_v6) = W1 m ρ c (Proc.devRef .tc main_v6) :=
  W2_of_ne m ρ c main_v6 (by decide)

theorem W2_v27 (c : Dev nD) : W2 m ρ c (Proc.devRef .tc main_v27) = W1 m ρ c (Proc.devRef .tc main_v27) :=
  W2_of_ne m ρ c main_v27 (by decide)

theorem W2_arg3 (c : Dev nD) : W2 m ρ c (Proc.devRef .tc main_arg3) = W1 m ρ c (Proc.devRef .tc main_arg3) :=
  W2_of_ne m ρ c main_arg3 (by decide)

theorem W2_arg7 (c : Dev nD) : W2 m ρ c (Proc.devRef .tc main_arg7) = W1 m ρ c (Proc.devRef .tc main_arg7) :=
  W2_of_ne m ρ c main_arg7 (by decide)

theorem W2_arg9 (c : Dev nD) : W2 m ρ c (Proc.devRef .tc main_arg9) = W1 m ρ c (Proc.devRef .tc main_arg9) :=
  W2_of_ne m ρ c main_arg9 (by decide)

theorem W2_arg10 (c : Dev nD) : W2 m ρ c (Proc.devRef .tc main_arg10) = W1 m ρ c (Proc.devRef .tc main_arg10) :=
  W2_of_ne m ρ c main_arg10 (by decide)

theorem W2_arg11 (c : Dev nD) : W2 m ρ c (Proc.devRef .tc main_arg11) = W1 m ρ c (Proc.devRef .tc main_arg11) :=
  W2_of_ne m ρ c main_arg11 (by decide)

theorem W2_arg6 (c : Dev nD) : W2 m ρ c (Proc.devRef .tc main_arg6) = W1 m ρ c (Proc.devRef .tc main_arg6) :=
  (W2_arr m ρ c 1).trans (((dat0 (V1 m ρ) c).arrAt_in 1 rfl _).trans (A_eq0 (V1 m ρ) c 1))

theorem W2_arg8 (c : Dev nD) : W2 m ρ c (Proc.devRef .tc main_arg8) = W1 m ρ c (Proc.devRef .tc main_arg8) :=
  (W2_arr m ρ c 3).trans (((dat0 (V1 m ρ) c).arrAt_in 3 rfl _).trans (A_eq0 (V1 m ρ) c 3))

/-! ## The second stretch, from the contents after the first region -/

/-- The second aggregation: of the first region's output, with the senders, receivers and embeddings the first
    stretch computed. -/
theorem W3_aggr (c : Dev nD) : W3 m ρ c (Proc.devRef .tc main_v52)
    = aggregate (W2 m ρ c (Proc.devRef .tc main_v41)) (m ((c : Thread nD τ).loc main_arg1)) (edgeEmb (m ((c : Thread nD τ).loc main_arg2)) (m ((c : Thread nD τ).loc main_arg4)) (m ((c : Thread nD τ).loc main_arg5))) := by
  dsimp only [W3, hostOps1]
  after_results_simp
  rw [W2_v3, W2_v6, W2_v27, W1_senders, W1_receivers, W1_emb]
  rfl

theorem W3_row1 (c : Dev nD) : W3 m ρ c (Proc.devRef .tc main_v53) = asRow (m ((c : Thread nD τ).loc main_arg7)) := by
  dsimp only [W3, hostOps1]
  after_results_simp
  rw [W2_arg7, W1_arg7]
  exact shapeCast_eq_asRow _ _

theorem W3_row2 (c : Dev nD) : W3 m ρ c (Proc.devRef .tc main_v54) = asRow (m ((c : Thread nD τ).loc main_arg9)) := by
  dsimp only [W3, hostOps1]
  after_results_simp
  rw [W2_arg9, W1_arg9]
  exact shapeCast_eq_asRow _ _

theorem W3_arg3 (c : Dev nD) : W3 m ρ c (Proc.devRef .tc main_arg3) = (m ((c : Thread nD τ).loc main_arg3)) := by
  dsimp only [W3, hostOps1]
  after_results_simp
  rw [W2_arg3, W1_arg3]

theorem W3_arg6 (c : Dev nD) : W3 m ρ c (Proc.devRef .tc main_arg6) = (m ((c : Thread nD τ).loc main_arg6)) := by
  dsimp only [W3, hostOps1]
  after_results_simp
  rw [W2_arg6, W1_arg6]

theorem W3_arg8 (c : Dev nD) : W3 m ρ c (Proc.devRef .tc main_arg8) = (m ((c : Thread nD τ).loc main_arg8)) := by
  dsimp only [W3, hostOps1]
  after_results_simp
  rw [W2_arg8, W1_arg8]

theorem W3_arg10 (c : Dev nD) : W3 m ρ c (Proc.devRef .tc main_arg10) = (m ((c : Thread nD τ).loc main_arg10)) := by
  dsimp only [W3, hostOps1]
  after_results_simp
  rw [W2_arg10, W1_arg10]

theorem W3_arg11 (c : Dev nD) : W3 m ρ c (Proc.devRef .tc main_arg11) = (m ((c : Thread nD τ).loc main_arg11)) := by
  dsimp only [W3, hostOps1]
  after_results_simp
  rw [W2_arg11, W1_arg11]

/-! ## Through the second region -/

theorem W4_arg3 (c : Dev nD) : W4 m ρ c (Proc.devRef .tc main_arg3) = (m ((c : Thread nD τ).loc main_arg3)) :=
  (W4_of_ne m ρ c main_arg3 (by decide)).trans (W3_arg3 m ρ c)

theorem W4_arg10 (c : Dev nD) : W4 m ρ c (Proc.devRef .tc main_arg10) = (m ((c : Thread nD τ).loc main_arg10)) :=
  (W4_of_ne m ρ c main_arg10 (by decide)).trans (W3_arg10 m ρ c)

theorem W4_arg11 (c : Dev nD) : W4 m ρ c (Proc.devRef .tc main_arg11) = (m ((c : Thread nD τ).loc main_arg11)) :=
  (W4_of_ne m ρ c main_arg11 (by decide)).trans (W3_arg11 m ρ c)

/-! ## The third stretch, from the contents after the second region -/

/-- The pooling of the second region's output over the graphs. -/
theorem W5_pool (c : Dev nD) : W5 m ρ c (Proc.devRef .tc main_v58)
    = pool (W4 m ρ c (Proc.devRef .tc main_v55)) (m ((c : Thread nD τ).loc main_arg3)) := by
  dsimp only [W5, hostOps2]
  after_results_simp
  rw [W4_arg3]
  rfl

/-- The last bias vector re-shaped to a 1×300 row. -/
theorem W5_row (c : Dev nD) : W5 m ρ c (Proc.devRef .tc main_v59) = asRow (m ((c : Thread nD τ).loc main_arg11)) := by
  dsimp only [W5, hostOps2]
  after_results_simp
  rw [W4_arg11]
  exact shapeCast_eq_asRow _ _

theorem W5_arg10 (c : Dev nD) : W5 m ρ c (Proc.devRef .tc main_arg10) = (m ((c : Thread nD τ).loc main_arg10)) := by
  dsimp only [W5, hostOps2]
  after_results_simp
  rw [W4_arg10]

end Cert.KernelIdeal.HostSide

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«120658_j16338055594643_1_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.LibRowBlocks.lean ====
/-
  Blocks of rows of a matrix product. An entry of a product depends on one row of the left operand, so a block of
  consecutive rows of A, multiplied by B, is the same block of rows of the product of A with B. Stated here with the
  two indices as variables: the index y inside the block and the index i of the whole array it sits at.
  Nothing here mentions a program.
-/
import Idealize.ShloMosaic.Lib.ValueIdx
import proofs.«120658_j16338055594643_1_alg».proof.Proof.LibMatProd

open scoped BigOperators

noncomputable section

namespace Cert.Lib.RowBlocks

open Idealize.ShloMosaic Idealize.ShloMosaic.ValueIdx Cert.Lib.MatProd

/-- The zero offset of a rank-2 rectangle, as a constant function. -/
theorem zero_offset2 : (![0, 0] : Fin 2 → Nat) = fun _ => 0 := funext fun a => by fin_cases a <;> rfl

/-- If row (y 0) of A' is row (i 0) of A, and y and i have the same column, the product of A' with B at y is the
    product of A with B at i. -/
theorem matProd_rows {m m' k n : Nat} (A : (⟨2, ![m, k]⟩ : Shape).Idx → EReal) (A' : (⟨2, ![m', k]⟩ : Shape).Idx → EReal)
    (B : (⟨2, ![k, n]⟩ : Shape).Idx → EReal) (y : (⟨2, ![m', n]⟩ : Shape).Idx) (i : (⟨2, ![m, n]⟩ : Shape).Idx)
    (hA : ∀ c : Fin k, A' (ix2 (⟨(y 0).val, idx2_lt0 y⟩ : Fin m') c) = A (ix2 (⟨(i 0).val, idx2_lt0 i⟩ : Fin m) c))
    (hcol : (y 1).val = (i 1).val) :
    matProd A' B y = matProd A B i := by
  obtain ⟨p, q, rfl⟩ : ∃ (p : Fin m') (q : Fin n), y = ix2 p q := ⟨y 0, y 1, eq_ix2 y⟩
  obtain ⟨r, s, rfl⟩ : ∃ (r : Fin m) (s : Fin n), i = ix2 r s := ⟨i 0, i 1, eq_ix2 i⟩
  have hqs : q = s := Fin.ext hcol
  subst hqs
  exact matProd_block A A' B B p q r q hA (fun _ => rfl)

end Cert.Lib.RowBlocks

end
-- ==== Proof.LibBiasRelu.lean ====
/-
  A bias row added to every row of a matrix and the result clamped below at zero, on the extended reals: the
  function itself, the kernel body's spelling of it (the row re-shaped in place, broadcast down the rows, added, and
  the maximum taken with a splat of the zero word), the reference's spelling (the bias vector broadcast into a 1×k row
  and then into the n×k array, added, and the maximum taken with a broadcast zero), and the fact that an entry depends
  on one entry of the matrix. The zero is kept as the value of the zero word, the same on both sides.
  Nothing here mentions a program.
-/
import Idealize.ShloMosaic.PureOps.Ideal.Laws
import Idealize.ShloMosaic.Lib.ValueIdx
import Idealize.ShloMosaic.Lib.Pipeline.Value
import proofs.«120658_j16338055594643_1_alg».proof.Proof.LibBlockReads
import proofs.«120658_j16338055594643_1_alg».proof.Proof.LibRowVector

noncomputable section

namespace Cert.Lib.BiasRelu

open Idealize.ShloMosaic Idealize.ShloMosaic.ValueIdx Cert.Lib.RowVector

variable {n n' k : Nat}

/-- Entry (p, q) is the maximum of X(p, q) + b(0, q) and zero. -/
def biasRelu (X : (⟨2, ![n, k]⟩ : Shape).Idx → EReal) (b : (⟨2, ![1, k]⟩ : Shape).Idx → EReal) :
    (⟨2, ![n, k]⟩ : Shape).Idx → EReal :=
  fun i => max (X i + b (ix2 (0 : Fin 1) (⟨(i 1).val, idx2_lt1 i⟩ : Fin k))) (Ideal.ofBits .f32 0x00000000#32)

theorem biasRelu_apply (X : (⟨2, ![n, k]⟩ : Shape).Idx → EReal) (b : (⟨2, ![1, k]⟩ : Shape).Idx → EReal)
    (p : Fin n) (q : Fin k) :
    biasRelu X b (ix2 p q) = max (X (ix2 p q) + b (ix2 0 q)) (Ideal.ofBits .f32 0x00000000#32) := rfl

/-- An entry depends on one entry of the matrix: equal entries give equal results. -/
theorem biasRelu_rows (X : (⟨2, ![n, k]⟩ : Shape).Idx → EReal) (X' : (⟨2, ![n', k]⟩ : Shape).Idx → EReal)
    (b : (⟨2, ![1, k]⟩ : Shape).Idx → EReal) (p' : Fin n') (p : Fin n) (q : Fin k)
    (h : X' (ix2 p' q) = X (ix2 p q)) : biasRelu X' b (ix2 p' q) = biasRelu X b (ix2 p q) := by
  rw [biasRelu_apply, biasRelu_apply, h]

/-- The kernel body's spelling. -/
theorem body_eq (x0 : FVec Ideal ⟨2, ![n, k]⟩ .f32) (x2 : FVec Ideal ⟨2, ![1, k]⟩ .f32)
    (h0 : (⟨2, ![n, k]⟩ : Shape).ShapeCasts ⟨2, ![n, k]⟩) (h2 : (⟨2, ![1, k]⟩ : Shape).ShapeCasts ⟨2, ![1, k]⟩)
    (hb : (⟨2, ![1, k]⟩ : Shape).Broadcasts ⟨2, ![n, k]⟩) :
    maximumf (addf (shapeCast ⟨2, ![n, k]⟩ x0 h0) (broadcastTo ⟨2, ![n, k]⟩ (shapeCast ⟨2, ![1, k]⟩ x2 h2) hb))
      (broadcast ⟨2, ![n, k]⟩ (Scalar.ofBits (F := Ideal) .f32 0x00000000#32)) = biasRelu x0 x2 := by
  funext i
  obtain ⟨p, q, rfl⟩ : ∃ (p : Fin n) (q : Fin k), i = ix2 p q := ⟨i 0, i 1, eq_ix2 i⟩
  rw [maximumf_apply, addf_apply, shapeCast_self, shapeCast_self, Cert.Lib.BlockReads.broadcast_row_apply]
  rfl

/-- The reference's spelling: the bias vector as a 1×k row. -/
theorem host_eq (X : FVec Ideal ⟨2, ![n, k]⟩ .f32) (b : FVec Ideal ⟨1, ![k]⟩ .f32)
    (h1 : (⟨1, ![k]⟩ : Shape).BroadcastsInDim ⟨2, ![1, k]⟩ ![1])
    (h2 : (⟨2, ![1, k]⟩ : Shape).BroadcastsInDim ⟨2, ![n, k]⟩ ![0, 1])
    (h3 : (⟨0, ![]⟩ : Shape).BroadcastsInDim ⟨2, ![n, k]⟩ ![]) :
    maximumf (addf X (broadcastInDim ⟨2, ![n, k]⟩ ![0, 1] h2 (broadcastInDim ⟨2, ![1, k]⟩ ![1] h1 b)))
      (broadcastInDim ⟨2, ![n, k]⟩ ![] h3 (constant (F := Ideal) ⟨0, ![]⟩ .f32 0x00000000#32)) = biasRelu X (asRow b) := by
  funext i
  obtain ⟨p, q, rfl⟩ : ∃ (p : Fin n) (q : Fin k), i = ix2 p q := ⟨i 0, i 1, eq_ix2 i⟩
  rw [maximumf_apply, addf_apply, bcastInDim_rows_apply, bcastInDim_eq_asRow, bcastInDim_scalar_apply]
  rfl

end Cert.Lib.BiasRelu

end
-- ==== Proof.LibDenseLayers.lean ====
/-
  Dense layers on the extended reals, as functions of whole arrays.

  A layer takes an r×k array X, a k×n array W and a vector b of n entries to the r×n array whose entry (p, q) is the
  sum over c of X(p, c) · W(c, q), plus b(q) — `affine` — or the maximum of that and zero — `dense`. An entry of a
  layer's result depends on one row of X, one column of W and one entry of b, so a layer applied to some rows of X
  (and to some columns of W with the matching entries of b) gives those rows (and columns) of the layer applied to
  the whole arrays: `dense_rows`, `affine_rows`, `affine_block`, with the row and column maps as variables. The two
  spellings of the bias are read once — a kernel body's (the vector re-shaped to a 1×n row, broadcast down the rows,
  added: `body_bias`, and with the maximum with a splat of the zero word: `body_bias_max`) and a host program's (the
  vector broadcast into a 1×n row and that into the r×n array, added: `host_bias`; with the maximum it is
  `Cert.Lib.BiasRelu.host_eq`) — and `max_biasAdd` takes the maximum of an already-read bias with the zero splat
  (the form a rewriting pass meets, since it reads the inner sum first). Sums and maxima on the extended reals need no
  finiteness here: nothing is distributed or cancelled. Nothing here mentions a program.
-/
import Idealize.ShloMosaic.PureOps.Ideal.Laws
import Idealize.ShloMosaic.Lib.ValueIdx
import Idealize.ShloMosaic.Lib.Pipeline.Value
import proofs.«120658_j16338055594643_1_alg».proof.Proof.LibMatProd
import proofs.«120658_j16338055594643_1_alg».proof.Proof.LibBiasRelu
import proofs.«120658_j16338055594643_1_alg».proof.Proof.LibRowVector
import proofs.«120658_j16338055594643_1_alg».proof.Proof.LibBlockReads

open scoped BigOperators

noncomputable section

namespace Cert.Layers

open Idealize.ShloMosaic Idealize.ShloMosaic.ValueIdx Cert.Lib.MatProd Cert.Lib.BiasRelu Cert.Lib.RowVector

variable {r r' k n n' : Nat}

/-- Entry (p, q) is X(p, q) + b(0, q). -/
def biasAdd (X : (⟨2, ![r, n]⟩ : Shape).Idx → EReal) (b : (⟨2, ![1, n]⟩ : Shape).Idx → EReal) :
    (⟨2, ![r, n]⟩ : Shape).Idx → EReal :=
  fun i => X i + b (ix2 (0 : Fin 1) (⟨(i 1).val, idx2_lt1 i⟩ : Fin n))

theorem biasAdd_apply (X : (⟨2, ![r, n]⟩ : Shape).Idx → EReal) (b : (⟨2, ![1, n]⟩ : Shape).Idx → EReal)
    (p : Fin r) (q : Fin n) : biasAdd X b (ix2 p q) = X (ix2 p q) + b (ix2 0 q) := rfl

/-- A layer with the maximum: entry (p, q) is max (∑ c, X(p, c) · W(c, q) + b(q)) 0. -/
def dense (X : (⟨2, ![r, k]⟩ : Shape).Idx → EReal) (W : (⟨2, ![k, n]⟩ : Shape).Idx → EReal)
    (b : (⟨1, ![n]⟩ : Shape).Idx → EReal) : (⟨2, ![r, n]⟩ : Shape).Idx → EReal :=
  biasRelu (matProd X W) (asRow b)

/-- A layer without it: entry (p, q) is ∑ c, X(p, c) · W(c, q) + b(q). -/
def affine (X : (⟨2, ![r, k]⟩ : Shape).Idx → EReal) (W : (⟨2, ![k, n]⟩ : Shape).Idx → EReal)
    (b : (⟨1, ![n]⟩ : Shape).Idx → EReal) : (⟨2, ![r, n]⟩ : Shape).Idx → EReal :=
  biasAdd (matProd X W) (asRow b)

/-- If row p of X' is row ρ p of X, row p of `dense X' W b` is row ρ p of `dense X W b`. -/
theorem dense_rows (X : (⟨2, ![r, k]⟩ : Shape).Idx → EReal) (X' : (⟨2, ![r', k]⟩ : Shape).Idx → EReal)
    (W : (⟨2, ![k, n]⟩ : Shape).Idx → EReal) (b : (⟨1, ![n]⟩ : Shape).Idx → EReal) (ρ : Fin r' → Fin r)
    (h : ∀ (p : Fin r') (c : Fin k), X' (ix2 p c) = X (ix2 (ρ p) c)) (p : Fin r') (q : Fin n) :
    dense X' W b (ix2 p q) = dense X W b (ix2 (ρ p) q) :=
  biasRelu_rows _ _ _ p (ρ p) q (matProd_block X X' W W p q (ρ p) q (h p) fun _ => rfl)

/-- The same for a layer without the maximum, a block of columns of W and the matching entries of b taken as well:
    if also column q of W' is column γ q of W and entry q of b' is entry γ q of b, entry (p, q) of
    `affine X' W' b'` is entry (ρ p, γ q) of `affine X W b`. -/
theorem affine_block (X : (⟨2, ![r, k]⟩ : Shape).Idx → EReal) (X' : (⟨2, ![r', k]⟩ : Shape).Idx → EReal)
    (W : (⟨2, ![k, n]⟩ : Shape).Idx → EReal) (W' : (⟨2, ![k, n']⟩ : Shape).Idx → EReal)
    (b : (⟨1, ![n]⟩ : Shape).Idx → EReal) (b' : (⟨1, ![n']⟩ : Shape).Idx → EReal)
    (ρ : Fin r' → Fin r) (γ : Fin n' → Fin n)
    (hX : ∀ (p : Fin r') (c : Fin k), X' (ix2 p c) = X (ix2 (ρ p) c))
    (hW : ∀ (c : Fin k) (q : Fin n'), W' (ix2 c q) = W (ix2 c (γ q)))
    (hb : ∀ q : Fin n', b' (ix1 q) = b (ix1 (γ q))) (p : Fin r') (q : Fin n') :
    affine X' W' b' (ix2 p q) = affine X W b (ix2 (ρ p) (γ q)) := by
  unfold affine
  rw [biasAdd_apply, biasAdd_apply, asRow_apply, asRow_apply, hb q,
    matProd_block X X' W W' p q (ρ p) (γ q) (hX p) fun c => hW c q]

theorem affine_rows (X : (⟨2, ![r, k]⟩ : Shape).Idx → EReal) (X' : (⟨2, ![r', k]⟩ : Shape).Idx → EReal)
    (W : (⟨2, ![k, n]⟩ : Shape).Idx → EReal) (b : (⟨1, ![n]⟩ : Shape).Idx → EReal) (ρ : Fin r' → Fin r)
    (h : ∀ (p : Fin r') (c : Fin k), X' (ix2 p c) = X (ix2 (ρ p) c)) (p : Fin r') (q : Fin n) :
    affine X' W b (ix2 p q) = affine X W b (ix2 (ρ p) q) :=
  affine_block X X' W W b b ρ id h (fun _ _ => rfl) (fun _ => rfl) p q

/-! ## The two spellings of a layer's bias and maximum -/

/-- The kernel body's bias: the vector re-shaped to a 1×n row and broadcast down the rows, then added. -/
theorem body_bias (M : FVec Ideal ⟨2, ![r, n]⟩ .f32) (v : FVec Ideal ⟨1, ![n]⟩ .f32)
    (h : (⟨1, ![n]⟩ : Shape).ShapeCasts ⟨2, ![1, n]⟩) (hb : (⟨2, ![1, n]⟩ : Shape).Broadcasts ⟨2, ![r, n]⟩) :
    addf M (broadcastTo ⟨2, ![r, n]⟩ (shapeCast ⟨2, ![1, n]⟩ v h) hb) = biasAdd M (asRow v) := by
  funext i
  obtain ⟨p, q, rfl⟩ : ∃ (p : Fin r) (q : Fin n), i = ix2 p q := ⟨i 0, i 1, eq_ix2 i⟩
  rw [addf_apply, Cert.Lib.BlockReads.broadcast_row_apply, shapeCast_eq_asRow]
  rfl

/-- The kernel body's bias and maximum with a splat of the zero word. -/
theorem body_bias_max (M : FVec Ideal ⟨2, ![r, n]⟩ .f32) (v : FVec Ideal ⟨1, ![n]⟩ .f32)
    (h : (⟨1, ![n]⟩ : Shape).ShapeCasts ⟨2, ![1, n]⟩) (hb : (⟨2, ![1, n]⟩ : Shape).Broadcasts ⟨2, ![r, n]⟩) :
    maximumf (addf M (broadcastTo ⟨2, ![r, n]⟩ (shapeCast ⟨2, ![1, n]⟩ v h) hb))
      (broadcast ⟨2, ![r, n]⟩ (Scalar.ofBits (F := Ideal) .f32 0x00000000#32)) = biasRelu M (asRow v) := by
  funext i
  obtain ⟨p, q, rfl⟩ : ∃ (p : Fin r) (q : Fin n), i = ix2 p q := ⟨i 0, i 1, eq_ix2 i⟩
  rw [maximumf_apply, addf_apply, Cert.Lib.BlockReads.broadcast_row_apply, shapeCast_eq_asRow]
  rfl

/-- The reference's bias: the vector broadcast into a 1×n row and that into the r×n array, then added. -/
theorem host_bias (M : FVec Ideal ⟨2, ![r, n]⟩ .f32) (v : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![r, n]⟩ ![0, 1]) :
    addf M (broadcastInDim ⟨2, ![r, n]⟩ ![0, 1] h2 (broadcastInDim ⟨2, ![1, n]⟩ ![1] h1 v)) = biasAdd M (asRow v) := by
  funext i
  obtain ⟨p, q, rfl⟩ : ∃ (p : Fin r) (q : Fin n), i = ix2 p q := ⟨i 0, i 1, eq_ix2 i⟩
  rw [addf_apply, bcastInDim_rows_apply, bcastInDim_eq_asRow]
  rfl

/-- The maximum of a biased matrix with a splat of the zero word is the bias and maximum in one. -/
theorem max_biasAdd (M : (⟨2, ![r, n]⟩ : Shape).Idx → EReal) (b : (⟨2, ![1, n]⟩ : Shape).Idx → EReal) :
    maximumf (F := Ideal) (s := ⟨2, ![r, n]⟩) (φ := .f32) (biasAdd M b)
      (broadcast ⟨2, ![r, n]⟩ (FloatOps.ofBits (F := Ideal) .f32 0x00000000#32)) = biasRelu M b := by
  funext i
  rw [maximumf_apply]
  rfl

end Cert.Layers

end
-- ==== Proof.LibInPlaceBodies.lean ====
/-
  Kernel bodies that re-shape a loaded block in place before using it, read once on the extended reals, and the
  dependence of a biased entry on one entry of the matrix, stated with whole indices.

  A product of two blocks narrowed to a shorter float format and accumulated into zeros is the matrix product of the
  blocks: narrowing a float is the identity on the extended reals. The same holds when the left block is first re-shaped
  to its own shape. A 1×n row re-shaped in place, broadcast down the rows of an r×n block that is itself re-shaped in
  place, and added, is the bias row added to every row. Entry i of a biased (or biased and clamped) matrix depends on
  entry i of the matrix and on the column of i only, so a block whose entry y is entry i of a larger matrix, in the same
  column, gives the larger matrix's biased entry. No finiteness is used: nothing is distributed or cancelled.
  Nothing here mentions a program.
-/
import Idealize.ShloMosaic.PureOps.Ideal.Laws
import Idealize.ShloMosaic.Lib.ValueIdx
import Idealize.ShloMosaic.Lib.Pipeline.Value
import proofs.«120658_j16338055594643_1_alg».proof.Proof.LibBlockReads
import proofs.«120658_j16338055594643_1_alg».proof.Proof.LibMatProd
import proofs.«120658_j16338055594643_1_alg».proof.Proof.LibBiasRelu
import proofs.«120658_j16338055594643_1_alg».proof.Proof.LibDenseLayers

open scoped BigOperators

noncomputable section

namespace Cert.Lib.InPlaceBodies

open Idealize.ShloMosaic Idealize.ShloMosaic.ValueIdx Cert.Lib.MatProd Cert.Lib.BiasRelu Cert.Layers

variable {r r' k n : Nat}

/-- Two blocks narrowed to a shorter float format, multiplied into a zero accumulator: the matrix product of the
    blocks themselves, since narrowing does nothing to an extended real. -/
theorem narrowed_product {ψ φ : FTy} (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (h : ψ.bits < φ.bits)
    (x0 : FVec Ideal ⟨2, ![r, k]⟩ φ) (x1 : FVec Ideal ⟨2, ![k, n]⟩ φ) :
    matmul d prec (truncf ψ x0 h) (truncf ψ x1 h) (constant ⟨2, ![r, n]⟩ .f32 0x00000000#32) = matProd x0 x1 :=
  matmul_zero_eq_matProd d hlc hrc hln hrn hlb hrb prec (truncf ψ x0 h) (truncf ψ x1 h)

/-- The same when the left block is first re-shaped to its own shape. -/
theorem narrowed_product_cast {ψ φ : FTy} (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (h : ψ.bits < φ.bits)
    (hc : (⟨2, ![r, k]⟩ : Shape).ShapeCasts ⟨2, ![r, k]⟩)
    (x0 : FVec Ideal ⟨2, ![r, k]⟩ φ) (x1 : FVec Ideal ⟨2, ![k, n]⟩ φ) :
    matmul d prec (truncf ψ (shapeCast ⟨2, ![r, k]⟩ x0 hc) h) (truncf ψ x1 h) (constant ⟨2, ![r, n]⟩ .f32 0x00000000#32)
      = matProd x0 x1 := by
  rw [shapeCast_self]
  exact narrowed_product d hlc hrc hln hrn hlb hrb prec h x0 x1

/-- A 1×n row re-shaped in place and broadcast down the rows of an r×n block, itself re-shaped in place, then added:
    the bias row added to every row. -/
theorem bias_in_place (x0 : FVec Ideal ⟨2, ![r, n]⟩ .f32) (x2 : FVec Ideal ⟨2, ![1, n]⟩ .f32)
    (h0 : (⟨2, ![r, n]⟩ : Shape).ShapeCasts ⟨2, ![r, n]⟩) (h2 : (⟨2, ![1, n]⟩ : Shape).ShapeCasts ⟨2, ![1, n]⟩)
    (hb : (⟨2, ![1, n]⟩ : Shape).Broadcasts ⟨2, ![r, n]⟩) :
    addf (shapeCast ⟨2, ![r, n]⟩ x0 h0) (broadcastTo ⟨2, ![r, n]⟩ (shapeCast ⟨2, ![1, n]⟩ x2 h2) hb) = biasAdd x0 x2 := by
  funext i
  obtain ⟨p, q, rfl⟩ : ∃ (p : Fin r) (q : Fin n), i = ix2 p q := ⟨i 0, i 1, eq_ix2 i⟩
  rw [addf_apply, shapeCast_self, shapeCast_self, Cert.Lib.BlockReads.broadcast_row_apply]
  rfl

/-- Entry y of a biased block is entry i of the biased matrix when entry y of the block is entry i of the matrix and
    the two indices are in the same column. -/
theorem biasAdd_at (X : (⟨2, ![r, n]⟩ : Shape).Idx → EReal) (X' : (⟨2, ![r', n]⟩ : Shape).Idx → EReal)
    (b : (⟨2, ![1, n]⟩ : Shape).Idx → EReal) (y : (⟨2, ![r', n]⟩ : Shape).Idx) (i : (⟨2, ![r, n]⟩ : Shape).Idx)
    (h : X' y = X i) (hcol : (y 1).val = (i 1).val) : biasAdd X' b y = biasAdd X b i := by
  have e : (⟨(y 1).val, idx2_lt1 y⟩ : Fin n) = ⟨(i 1).val, idx2_lt1 i⟩ := Fin.ext hcol
  show X' y + b (ix2 (0 : Fin 1) (⟨(y 1).val, idx2_lt1 y⟩ : Fin n)) = X i + b (ix2 (0 : Fin 1) (⟨(i 1).val, idx2_lt1 i⟩ : Fin n))
  rw [h, e]

/-- The same for a biased block clamped below at the zero word. -/
theorem biasRelu_at (X : (⟨2, ![r, n]⟩ : Shape).Idx → EReal) (X' : (⟨2, ![r', n]⟩ : Shape).Idx → EReal)
    (b : (⟨2, ![1, n]⟩ : Shape).Idx → EReal) (y : (⟨2, ![r', n]⟩ : Shape).Idx) (i : (⟨2, ![r, n]⟩ : Shape).Idx)
    (h : X' y = X i) (hcol : (y 1).val = (i 1).val) : biasRelu X' b y = biasRelu X b i := by
  have e : (⟨(y 1).val, idx2_lt1 y⟩ : Fin n) = ⟨(i 1).val, idx2_lt1 i⟩ := Fin.ext hcol
  show max (X' y + b (ix2 (0 : Fin 1) (⟨(y 1).val, idx2_lt1 y⟩ : Fin n))) (Ideal.ofBits .f32 0x00000000#32)
     = max (X i + b (ix2 (0 : Fin 1) (⟨(i 1).val, idx2_lt1 i⟩ : Fin n))) (Ideal.ofBits .f32 0x00000000#32)
  rw [h, e]

end Cert.Lib.InPlaceBodies

end
-- ==== Proof.LibReluLayers.lean ====
/-
  Two dense layers, each followed by a clamp below at zero, and one affine layer, on the extended reals, as functions
  of whole arrays with each bias given as a 1×n ROW.

  `twoLayers X W₁ r₁ W₂ r₂` takes an r×k array X to the r×n array max((max(X·W₁ + r₁, 0))·W₂ + r₂, 0), the rows r₁, r₂
  added to every row of the products; `rowAffine X W r` is X·W + r. An entry of either depends on ONE row of X, so
  applied to a block of rows of X they give the same rows of the result for the whole of X (`twoLayers_rows`,
  `rowAffine_rows`: the index inside the block and the index in the whole array as variables). Two spellings are read
  once each: a kernel body's (the left block re-shaped in place, both operands of each product narrowed to a shorter
  float format, products into zeros, the bias row re-shaped in place and broadcast down the rows, the maximum with a
  splat of the zero word: `body_twoLayers`, `body_rowAffine`) and a host program's (dot_general, the bias VECTOR
  broadcast to a 1×n row and that to r×n, the maximum with a broadcast zero constant: `host_twoLayers`,
  `host_rowAffine`, with `asRow` of the vector as the row). Nothing is distributed or cancelled, so no finiteness is
  asked. Nothing here mentions a program.
-/
import Idealize.ShloMosaic.PureOps.Ideal.Laws
import Idealize.ShloMosaic.Lib.ValueIdx
import Idealize.ShloMosaic.Lib.Pipeline.Value
import proofs.«120658_j16338055594643_1_alg».proof.Proof.LibBlockReads
import proofs.«120658_j16338055594643_1_alg».proof.Proof.LibMatProd
import proofs.«120658_j16338055594643_1_alg».proof.Proof.LibRowBlocks
import proofs.«120658_j16338055594643_1_alg».proof.Proof.LibBiasRelu
import proofs.«120658_j16338055594643_1_alg».proof.Proof.LibRowVector
import proofs.«120658_j16338055594643_1_alg».proof.Proof.LibDenseLayers
import proofs.«120658_j16338055594643_1_alg».proof.Proof.LibInPlaceBodies

open scoped BigOperators

noncomputable section

namespace Cert.Lib.ReluLayers

open Idealize.ShloMosaic Idealize.ShloMosaic.ValueIdx Cert.Lib.MatProd Cert.Lib.BiasRelu Cert.Lib.RowVector
open Cert.Lib.RowBlocks Cert.Lib.InPlaceBodies Cert.Layers

variable {r r' k h n : Nat}

/-- max((max(X·W₁ + r₁, 0))·W₂ + r₂, 0): two dense layers, each clamped below at the zero word. -/
def twoLayers (X : (⟨2, ![r, k]⟩ : Shape).Idx → EReal) (W₁ : (⟨2, ![k, h]⟩ : Shape).Idx → EReal)
    (r₁ : (⟨2, ![1, h]⟩ : Shape).Idx → EReal) (W₂ : (⟨2, ![h, n]⟩ : Shape).Idx → EReal)
    (r₂ : (⟨2, ![1, n]⟩ : Shape).Idx → EReal) : (⟨2, ![r, n]⟩ : Shape).Idx → EReal :=
  biasRelu (matProd (biasRelu (matProd X W₁) r₁) W₂) r₂

/-- X·W + r: one layer, no clamp. -/
def rowAffine (X : (⟨2, ![r, k]⟩ : Shape).Idx → EReal) (W : (⟨2, ![k, n]⟩ : Shape).Idx → EReal)
    (b : (⟨2, ![1, n]⟩ : Shape).Idx → EReal) : (⟨2, ![r, n]⟩ : Shape).Idx → EReal :=
  biasAdd (matProd X W) b

/-- If row (y 0) of X' is row (i 0) of X and y, i are in the same column, the two layers of X' at y are the two
    layers of X at i: the inner product, its bias and clamp, the outer product, its bias and clamp each depend on that
    one row only. -/
theorem twoLayers_rows (X : (⟨2, ![r, k]⟩ : Shape).Idx → EReal) (X' : (⟨2, ![r', k]⟩ : Shape).Idx → EReal)
    (W₁ : (⟨2, ![k, h]⟩ : Shape).Idx → EReal) (r₁ : (⟨2, ![1, h]⟩ : Shape).Idx → EReal)
    (W₂ : (⟨2, ![h, n]⟩ : Shape).Idx → EReal) (r₂ : (⟨2, ![1, n]⟩ : Shape).Idx → EReal)
    (y : (⟨2, ![r', n]⟩ : Shape).Idx) (i : (⟨2, ![r, n]⟩ : Shape).Idx)
    (hX : ∀ c : Fin k, X' (ix2 (⟨(y 0).val, idx2_lt0 y⟩ : Fin r') c) = X (ix2 (⟨(i 0).val, idx2_lt0 i⟩ : Fin r) c))
    (hcol : (y 1).val = (i 1).val) :
    twoLayers X' W₁ r₁ W₂ r₂ y = twoLayers X W₁ r₁ W₂ r₂ i := by
  unfold twoLayers
  refine biasRelu_at _ _ r₂ y i ?_ hcol
  refine matProd_rows _ _ W₂ y i (fun c => ?_) hcol
  refine biasRelu_at _ _ r₁ _ _ ?_ rfl
  exact matProd_rows X X' W₁ _ _ (fun c' => hX c') rfl

/-- The same for one affine layer. -/
theorem rowAffine_rows (X : (⟨2, ![r, k]⟩ : Shape).Idx → EReal) (X' : (⟨2, ![r', k]⟩ : Shape).Idx → EReal)
    (W : (⟨2, ![k, n]⟩ : Shape).Idx → EReal) (b : (⟨2, ![1, n]⟩ : Shape).Idx → EReal)
    (y : (⟨2, ![r', n]⟩ : Shape).Idx) (i : (⟨2, ![r, n]⟩ : Shape).Idx)
    (hX : ∀ c : Fin k, X' (ix2 (⟨(y 0).val, idx2_lt0 y⟩ : Fin r') c) = X (ix2 (⟨(i 0).val, idx2_lt0 i⟩ : Fin r) c))
    (hcol : (y 1).val = (i 1).val) :
    rowAffine X' W b y = rowAffine X W b i := by
  unfold rowAffine
  exact biasAdd_at _ _ b y i (matProd_rows X X' W y i hX hcol) hcol

/-! ## A kernel body's spelling -/

/-- A 1×n row re-shaped in place, broadcast down the rows of an r×n matrix, added, and the maximum with a splat of
    the zero word: the bias row and the clamp in one. -/
theorem clamp_row (M : (⟨2, ![r, n]⟩ : Shape).Idx → EReal) (x : FVec Ideal ⟨2, ![1, n]⟩ .f32)
    (hc : (⟨2, ![1, n]⟩ : Shape).ShapeCasts ⟨2, ![1, n]⟩) (hb : (⟨2, ![1, n]⟩ : Shape).Broadcasts ⟨2, ![r, n]⟩) :
    maximumf (F := Ideal) (s := ⟨2, ![r, n]⟩) (φ := .f32)
      (addf (F := Ideal) (s := ⟨2, ![r, n]⟩) (φ := .f32) M (broadcastTo ⟨2, ![r, n]⟩ (shapeCast ⟨2, ![1, n]⟩ x hc) hb))
      (broadcast ⟨2, ![r, n]⟩ (Scalar.ofBits (F := Ideal) .f32 0x00000000#32)) = biasRelu M x := by
  funext i
  obtain ⟨p, q, rfl⟩ : ∃ (p : Fin r) (q : Fin n), i = ix2 p q := ⟨i 0, i 1, eq_ix2 i⟩
  rw [maximumf_apply, addf_apply, shapeCast_self, Cert.Lib.BlockReads.broadcast_row_apply]
  rfl

/-- The same without the clamp. -/
theorem bias_row (M : (⟨2, ![r, n]⟩ : Shape).Idx → EReal) (x : FVec Ideal ⟨2, ![1, n]⟩ .f32)
    (hc : (⟨2, ![1, n]⟩ : Shape).ShapeCasts ⟨2, ![1, n]⟩) (hb : (⟨2, ![1, n]⟩ : Shape).Broadcasts ⟨2, ![r, n]⟩) :
    addf (F := Ideal) (s := ⟨2, ![r, n]⟩) (φ := .f32) M (broadcastTo ⟨2, ![r, n]⟩ (shapeCast ⟨2, ![1, n]⟩ x hc) hb)
      = biasAdd M x := by
  funext i
  obtain ⟨p, q, rfl⟩ : ∃ (p : Fin r) (q : Fin n), i = ix2 p q := ⟨i 0, i 1, eq_ix2 i⟩
  rw [addf_apply, shapeCast_self, Cert.Lib.BlockReads.broadcast_row_apply]
  rfl

/-- The body of a two-layer kernel: the left block re-shaped in place, both operands of each product narrowed,
    products into zeros, each bias a 1×n block re-shaped in place and broadcast, each clamp a maximum with a splat. -/
theorem body_twoLayers {ψ : FTy}
    (d₁ : DotDims ⟨2, ![r, k]⟩ ⟨2, ![k, h]⟩ ⟨2, ![r, h]⟩)
    (h1lc : d₁.lhsContracting = [1]) (h1rc : d₁.rhsContracting = [0]) (h1ln : d₁.lhsNonContracting = [0])
    (h1rn : d₁.rhsNonContracting = [1]) (h1lb : d₁.lhsBatch = []) (h1rb : d₁.rhsBatch = [])
    (d₂ : DotDims ⟨2, ![r, h]⟩ ⟨2, ![h, n]⟩ ⟨2, ![r, n]⟩)
    (h2lc : d₂.lhsContracting = [1]) (h2rc : d₂.rhsContracting = [0]) (h2ln : d₂.lhsNonContracting = [0])
    (h2rn : d₂.rhsNonContracting = [1]) (h2lb : d₂.lhsBatch = []) (h2rb : d₂.rhsBatch = [])
    (hψ : ψ.bits < FTy.f32.bits)
    (hc0 : (⟨2, ![r, k]⟩ : Shape).ShapeCasts ⟨2, ![r, k]⟩)
    (hc2 : (⟨2, ![1, h]⟩ : Shape).ShapeCasts ⟨2, ![1, h]⟩) (hb2 : (⟨2, ![1, h]⟩ : Shape).Broadcasts ⟨2, ![r, h]⟩)
    (hc4 : (⟨2, ![1, n]⟩ : Shape).ShapeCasts ⟨2, ![1, n]⟩) (hb4 : (⟨2, ![1, n]⟩ : Shape).Broadcasts ⟨2, ![r, n]⟩)
    (x0 : FVec Ideal ⟨2, ![r, k]⟩ .f32) (x1 : FVec Ideal ⟨2, ![k, h]⟩ .f32) (x2 : FVec Ideal ⟨2, ![1, h]⟩ .f32)
    (x3 : FVec Ideal ⟨2, ![h, n]⟩ .f32) (x4 : FVec Ideal ⟨2, ![1, n]⟩ .f32) :
    maximumf (addf (matmul d₂ none
        (truncf ψ (maximumf (addf (matmul d₁ none (truncf ψ (shapeCast ⟨2, ![r, k]⟩ x0 hc0) hψ) (truncf ψ x1 hψ)
            (constant ⟨2, ![r, h]⟩ .f32 0x00000000#32)) (broadcastTo ⟨2, ![r, h]⟩ (shapeCast ⟨2, ![1, h]⟩ x2 hc2) hb2))
          (broadcast ⟨2, ![r, h]⟩ (Scalar.ofBits (F := Ideal) .f32 0x00000000#32))) hψ)
        (truncf ψ x3 hψ) (constant ⟨2, ![r, n]⟩ .f32 0x00000000#32))
        (broadcastTo ⟨2, ![r, n]⟩ (shapeCast ⟨2, ![1, n]⟩ x4 hc4) hb4))
      (broadcast ⟨2, ![r, n]⟩ (Scalar.ofBits (F := Ideal) .f32 0x00000000#32))
      = twoLayers x0 x1 x2 x3 x4 := by
  rw [narrowed_product_cast d₁ h1lc h1rc h1ln h1rn h1lb h1rb none hψ hc0 x0 x1,
    clamp_row (matProd x0 x1) x2 hc2 hb2,
    narrowed_product (φ := .f32) d₂ h2lc h2rc h2ln h2rn h2lb h2rb none hψ (biasRelu (matProd x0 x1) x2) x3,
    clamp_row (matProd (biasRelu (matProd x0 x1) x2) x3) x4 hc4 hb4]
  rfl

/-- The body of a one-layer kernel without a clamp. -/
theorem body_rowAffine {ψ : FTy}
    (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (hψ : ψ.bits < FTy.f32.bits)
    (hc0 : (⟨2, ![r, k]⟩ : Shape).ShapeCasts ⟨2, ![r, k]⟩)
    (hc2 : (⟨2, ![1, n]⟩ : Shape).ShapeCasts ⟨2, ![1, n]⟩) (hb2 : (⟨2, ![1, n]⟩ : Shape).Broadcasts ⟨2, ![r, n]⟩)
    (x0 : FVec Ideal ⟨2, ![r, k]⟩ .f32) (x1 : FVec Ideal ⟨2, ![k, n]⟩ .f32) (x2 : FVec Ideal ⟨2, ![1, n]⟩ .f32) :
    addf (matmul d none (truncf ψ (shapeCast ⟨2, ![r, k]⟩ x0 hc0) hψ) (truncf ψ x1 hψ)
        (constant ⟨2, ![r, n]⟩ .f32 0x00000000#32)) (broadcastTo ⟨2, ![r, n]⟩ (shapeCast ⟨2, ![1, n]⟩ x2 hc2) hb2)
      = rowAffine x0 x1 x2 := by
  rw [narrowed_product_cast d hlc hrc hln hrn hlb hrb none hψ hc0 x0 x1, bias_row (matProd x0 x1) x2 hc2 hb2]
  rfl

/-! ## A host program's spelling -/

/-- The host's plain dot_general is the matrix product. -/
theorem host_product (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (X : FVec Ideal ⟨2, ![r, k]⟩ .f32) (W : FVec Ideal ⟨2, ![k, n]⟩ .f32) :
    Host.dotGeneral d none X W = matProd X W :=
  dotGeneral_eq_matProd d hlc hrc hln hrn hlb hrb none .single X W

/-- The reference's two layers: dot_general, the bias vector broadcast to a row and to the matrix, added, the maximum
    with a broadcast zero constant, twice. -/
theorem host_twoLayers
    (d₁ : DotDims ⟨2, ![r, k]⟩ ⟨2, ![k, h]⟩ ⟨2, ![r, h]⟩)
    (h1lc : d₁.lhsContracting = [1]) (h1rc : d₁.rhsContracting = [0]) (h1ln : d₁.lhsNonContracting = [0])
    (h1rn : d₁.rhsNonContracting = [1]) (h1lb : d₁.lhsBatch = []) (h1rb : d₁.rhsBatch = [])
    (d₂ : DotDims ⟨2, ![r, h]⟩ ⟨2, ![h, n]⟩ ⟨2, ![r, n]⟩)
    (h2lc : d₂.lhsContracting = [1]) (h2rc : d₂.rhsContracting = [0]) (h2ln : d₂.lhsNonContracting = [0])
    (h2rn : d₂.rhsNonContracting = [1]) (h2lb : d₂.lhsBatch = []) (h2rb : d₂.rhsBatch = [])
    (g1a : (⟨1, ![h]⟩ : Shape).BroadcastsInDim ⟨2, ![1, h]⟩ ![1])
    (g1b : (⟨2, ![1, h]⟩ : Shape).BroadcastsInDim ⟨2, ![r, h]⟩ ![0, 1])
    (g1z : (⟨0, ![]⟩ : Shape).BroadcastsInDim ⟨2, ![r, h]⟩ ![])
    (g2a : (⟨1, ![n]⟩ : Shape).BroadcastsInDim ⟨2, ![1, n]⟩ ![1])
    (g2b : (⟨2, ![1, n]⟩ : Shape).BroadcastsInDim ⟨2, ![r, n]⟩ ![0, 1])
    (g2z : (⟨0, ![]⟩ : Shape).BroadcastsInDim ⟨2, ![r, n]⟩ ![])
    (X : FVec Ideal ⟨2, ![r, k]⟩ .f32) (W₁ : FVec Ideal ⟨2, ![k, h]⟩ .f32) (b₁ : FVec Ideal ⟨1, ![h]⟩ .f32)
    (W₂ : FVec Ideal ⟨2, ![h, n]⟩ .f32) (b₂ : FVec Ideal ⟨1, ![n]⟩ .f32) :
    maximumf (addf (Host.dotGeneral d₂ none
        (maximumf (addf (Host.dotGeneral d₁ none X W₁)
            (broadcastInDim ⟨2, ![r, h]⟩ ![0, 1] g1b (broadcastInDim ⟨2, ![1, h]⟩ ![1] g1a b₁)))
          (broadcastInDim ⟨2, ![r, h]⟩ ![] g1z (constant (F := Ideal) ⟨0, ![]⟩ .f32 0x00000000#32))) W₂)
        (broadcastInDim ⟨2, ![r, n]⟩ ![0, 1] g2b (broadcastInDim ⟨2, ![1, n]⟩ ![1] g2a b₂)))
      (broadcastInDim ⟨2, ![r, n]⟩ ![] g2z (constant (F := Ideal) ⟨0, ![]⟩ .f32 0x00000000#32))
      = twoLayers X W₁ (asRow b₁) W₂ (asRow b₂) := by
  rw [host_product d₁ h1lc h1rc h1ln h1rn h1lb h1rb X W₁,
    Cert.Lib.BiasRelu.host_eq (matProd X W₁) b₁ g1a g1b g1z,
    host_product d₂ h2lc h2rc h2ln h2rn h2lb h2rb (biasRelu (matProd X W₁) (asRow b₁)) W₂,
    Cert.Lib.BiasRelu.host_eq (matProd (biasRelu (matProd X W₁) (asRow b₁)) W₂) b₂ g2a g2b g2z]
  rfl

/-- The reference's affine layer. -/
theorem host_rowAffine (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (ga : (⟨1, ![n]⟩ : Shape).BroadcastsInDim ⟨2, ![1, n]⟩ ![1])
    (gb : (⟨2, ![1, n]⟩ : Shape).BroadcastsInDim ⟨2, ![r, n]⟩ ![0, 1])
    (X : FVec Ideal ⟨2, ![r, k]⟩ .f32) (W : FVec Ideal ⟨2, ![k, n]⟩ .f32) (b : FVec Ideal ⟨1, ![n]⟩ .f32) :
    addf (Host.dotGeneral d none X W) (broadcastInDim ⟨2, ![r, n]⟩ ![0, 1] gb (broadcastInDim ⟨2, ![1, n]⟩ ![1] ga b))
      = rowAffine X W (asRow b) := by
  rw [host_product d hlc hrc hln hrn hlb hrb X W, Cert.Layers.host_bias (matProd X W) b ga gb]
  rfl

end Cert.Lib.ReluLayers

end
-- ==== Proof.KernelBodies.lean ====
/-
  The three kernel bodies on the extended reals. Each of the two node-update kernels computes, of the block of rows
  it loads, two dense layers with a clamp after each (`twoLayers`): the rows and both weight matrices narrowed to a
  shorter float format on the way into each product, which changes nothing on the extended reals. The projection kernel
  computes one affine layer (`rowAffine`) of its block.
-/
import proofs.«120658_j16338055594643_1_alg».proof.Proof.Gen.KernelIdeal.Skeleton
import proofs.«120658_j16338055594643_1_alg».proof.Proof.LibReluLayers

noncomputable section

namespace Cert.KernelIdeal.Bodies

open Cert.KernelIdeal Cert.KernelIdeal.Gen Idealize.ShloMosaic Cert.Lib.ReluLayers

/-- The first node-update kernel's stored value: two clamped dense layers of its block of rows. -/
theorem pay0_eq (x0 : Vec Ideal S2000x300 .f32) (x1 : Vec Ideal S300x600 .f32) (x2 : Vec Ideal S1x600 .f32)
    (x3 : Vec Ideal S600x300 .f32) (x4 : Vec Ideal S1x300 .f32) :
    k0_pay1 (F := Ideal) x0 x1 x2 x3 x4 = twoLayers x0 x1 x2 x3 x4 := by
  unfold k0_pay1
  exact body_twoLayers dot_S2000x300_S300x600_S2000x600_1_0_0_1_n_n rfl rfl rfl rfl rfl rfl
    dot_S2000x600_S600x300_S2000x300_1_0_0_1_n_n rfl rfl rfl rfl rfl rfl bitsLt_bf16_f32
    shapeCasts_S2000x300_S2000x300 shapeCasts_S1x600_S1x600 broadcasts_S1x600_S2000x600
    shapeCasts_S1x300_S1x300 broadcasts_S1x300_S2000x300 x0 x1 x2 x3 x4

/-- The second node-update kernel's stored value: the same function. -/
theorem pay1_eq (x0 : Vec Ideal S2000x300 .f32) (x1 : Vec Ideal S300x600 .f32) (x2 : Vec Ideal S1x600 .f32)
    (x3 : Vec Ideal S600x300 .f32) (x4 : Vec Ideal S1x300 .f32) :
    k1_pay1 (F := Ideal) x0 x1 x2 x3 x4 = twoLayers x0 x1 x2 x3 x4 := by
  unfold k1_pay1
  exact body_twoLayers dot_S2000x300_S300x600_S2000x600_1_0_0_1_n_n rfl rfl rfl rfl rfl rfl
    dot_S2000x600_S600x300_S2000x300_1_0_0_1_n_n rfl rfl rfl rfl rfl rfl bitsLt_bf16_f32
    shapeCasts_S2000x300_S2000x300 shapeCasts_S1x600_S1x600 broadcasts_S1x600_S2000x600
    shapeCasts_S1x300_S1x300 broadcasts_S1x300_S2000x300 x0 x1 x2 x3 x4

/-- The projection kernel's stored value: one affine layer of its block. -/
theorem pay2_eq (x0 : Vec Ideal S2048x300 .f32) (x1 : Vec Ideal S300x300 .f32) (x2 : Vec Ideal S1x300 .f32) :
    k2_pay1 (F := Ideal) x0 x1 x2 = rowAffine x0 x1 x2 := by
  unfold k2_pay1
  exact body_rowAffine dot_S2048x300_S300x300_S2048x300_1_0_0_1_n_n rfl rfl rfl rfl rfl rfl bitsLt_bf16_f32
    shapeCasts_S2048x300_S2048x300 shapeCasts_S1x300_S1x300 broadcasts_S1x300_S2048x300 x0 x1 x2

end Cert.KernelIdeal.Bodies

end
-- ==== Proof.KernelRegions.lean ====
/-
  What each of the three kernel regions leaves in its output array, as one function of the arrays the region is
  entered with (the parameter `V`: the TensorCore's buffer contents at the region's entry).

  A node-update region runs over 50 grid points. Point t fetches rows 2000·t … 2000·t + 1999 of the array of
  aggregated rows and the whole of both weight matrices and both bias rows, and writes back rows 2000·t … 2000·t + 1999
  of its output. What it writes is the two clamped dense layers of its block of rows, and an entry of those depends on
  its own row only, so the block is the same rows of the layers applied to the whole array; the 50 blocks tile the
  100000 rows. The projection region has one point, whose blocks are the whole arrays.
-/
import proofs.«120658_j16338055594643_1_alg».proof.Proof.Gen.KernelIdeal.Frame
import proofs.«120658_j16338055594643_1_alg».proof.Proof.KernelBodies
import Idealize.ShloMosaic.Lib.Pipeline.Value
import Idealize.ShloMosaic.Lib.Tactic

set_option maxRecDepth 16384

noncomputable section

namespace Cert.KernelIdeal.Regions

open Cert.KernelIdeal Cert.KernelIdeal.Gen Cert.KernelIdeal.Bodies Idealize.ShloMosaic Idealize.ShloMosaic.TcCoe Idealize.SL.Sem
open Cert.Lib.ReluLayers
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Region 0: the node-update kernel over 50 blocks of 2000 rows -/

/-- The printed index maps of region 0, decided over its 50 grid points: the row-block windows (the input rows and the
    output) sit at block (t, 0), the weight and bias windows at block (0, 0). -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The first weight matrix's block is the whole matrix at every point. -/
theorem iblk0_1 (c : Dev nD) (t : Fin cfg0.N) : (iblk0 V c 1 t : S300x600.Idx → EReal) = V c main_arg6 := by
  obtain ⟨-, -, e0, e1, -⟩ := idx0 t
  funext j
  show V c main_arg6 (((cfg0.win 1).blk t).view.emb j) = V c main_arg6 j
  refine congrArg _ ?_
  funext a; apply Fin.ext
  match a with
  | ⟨0, _⟩ => show win0_1.index t (0 : Fin 2) * 300 + 1 * (j 0).val = (j 0).val; omega
  | ⟨1, _⟩ => show win0_1.index t (1 : Fin 2) * 600 + 1 * (j 1).val = (j 1).val; omega

/-- The first bias row's block is the whole row. -/
theorem iblk0_2 (c : Dev nD) (t : Fin cfg0.N) : (iblk0 V c 2 t : S1x600.Idx → EReal) = V c main_v39 := by
  obtain ⟨-, -, -, -, e0, e1, -⟩ := idx0 t
  funext j
  show V c main_v39 (((cfg0.win 2).blk t).view.emb j) = V c main_v39 j
  refine congrArg _ ?_
  funext a; apply Fin.ext
  match a with
  | ⟨0, _⟩ => show win0_2.index t (0 : Fin 2) * 1 + 1 * (j 0).val = (j 0).val; omega
  | ⟨1, _⟩ => show win0_2.index t (1 : Fin 2) * 600 + 1 * (j 1).val = (j 1).val; omega

/-- The second weight matrix's block is the whole matrix. -/
theorem iblk0_3 (c : Dev nD) (t : Fin cfg0.N) : (iblk0 V c 3 t : S600x300.Idx → EReal) = V c main_arg8 := by
  obtain ⟨-, -, -, -, -, -, e0, e1, -⟩ := idx0 t
  funext j
  show V c main_arg8 (((cfg0.win 3).blk t).view.emb j) = V c main_arg8 j
  refine congrArg _ ?_
  funext a; apply Fin.ext
  match a with
  | ⟨0, _⟩ => show win0_3.index t (0 : Fin 2) * 600 + 1 * (j 0).val = (j 0).val; omega
  | ⟨1, _⟩ => show win0_3.index t (1 : Fin 2) * 300 + 1 * (j 1).val = (j 1).val; omega

/-- The second bias row's block is the whole row. -/
theorem iblk0_4 (c : Dev nD) (t : Fin cfg0.N) : (iblk0 V c 4 t : S1x300.Idx → EReal) = V c main_v40 := by
  obtain ⟨-, -, -, -, -, -, -, -, e0, e1, -⟩ := idx0 t
  funext j
  show V c main_v40 (((cfg0.win 4).blk t).view.emb j) = V c main_v40 j
  refine congrArg _ ?_
  funext a; apply Fin.ext
  match a with
  | ⟨0, _⟩ => show win0_4.index t (0 : Fin 2) * 1 + 1 * (j 0).val = (j 0).val; omega
  | ⟨1, _⟩ => show win0_4.index t (1 : Fin 2) * 300 + 1 * (j 1).val = (j 1).val; omega

/-- What point t writes back is block t of the two clamped dense layers of the WHOLE array of aggregated rows: the
    point's input rows are rows 2000·t … 2000·t + 1999 of that array, its output block sits at the same rows, and an
    entry of the layers depends on its own row only. -/
theorem flushed0 (c : Dev nD) (t : Fin cfg0.N) :
    (dat0 V c).flushed 5 t = ((cfg0.win 5).blk t).view.read (Elt Ideal)
      (twoLayers (V c main_v38) (V c main_arg6) (V c main_v39) (V c main_arg8) (V c main_v40)) := by
  show (cfg0.win 5).cut (grid0.coords t) ((dat0 V c).after 5 t) = _
  rw [after0_5]
  unfold out0_5
  rw [View.canon_unit_zero hz]
  simp only [View.ld_unit_zero (S := S2000x300) hz, View.ld_unit_zero (S := S300x600) hz,
    View.ld_unit_zero (S := S1x600) hz, View.ld_unit_zero (S := S600x300) hz, View.ld_unit_zero (S := S1x300) hz]
  rw [pay0_eq, iblk0_1, iblk0_2, iblk0_3, iblk0_4]
  obtain ⟨e00, e01, -, -, -, -, -, -, -, -, e50, e51⟩ := idx0 t
  funext y
  show twoLayers (iblk0 V c 0 t) (V c main_arg6) (V c main_v39) (V c main_arg8) (V c main_v40) y
    = twoLayers (V c main_v38) (V c main_arg6) (V c main_v39) (V c main_arg8) (V c main_v40) (((cfg0.win 5).blk t).view.emb y)
  refine twoLayers_rows _ _ _ _ _ _ y _ (fun c' => ?_) ?_
  · show V c main_v38 (((cfg0.win 0).blk t).view.emb (ValueIdx.ix2 (⟨(y 0).val, ValueIdx.idx2_lt0 y⟩ : Fin 2000) c')) = V c main_v38 _
    refine congrArg _ ?_
    funext a; apply Fin.ext
    match a with
    | ⟨0, _⟩ => show win0_0.index t (0 : Fin 2) * 2000 + 1 * (y 0).val = win0_5.index t (0 : Fin 2) * 2000 + 1 * (y 0).val; omega
    | ⟨1, _⟩ => show win0_0.index t (1 : Fin 2) * 300 + 1 * c'.val = c'.val; omega
  · show (y 1).val = win0_5.index t (1 : Fin 2) * 300 + 1 * (y 1).val; omega

/-- An index of the output array is in point t's block iff each coordinate is in the block's range on its axis. -/
theorem mem_blk0 (t : Fin cfg0.N) (i : S100000x300.Idx) :
    i ∈ ((cfg0.win 5).blk t).view.set ↔ ∀ a : Fin 2, win0_5.index t a * S2000x300.size a ≤ (i a).val ∧ (i a).val < win0_5.index t a * S2000x300.size a + S2000x300.size a := by
  show i ∈ ((View.whole main_v41).slice (win0_5.rect t)).set ↔ _
  rw [View.set_slice_whole, Rect.mem_set_unit]
  exact Iff.rfl

/-- Row r of the output array is written by point r / 2000: the 50 blocks of 2000 rows tile the 100000 rows. -/
theorem cover0 (i : S100000x300.Idx) :
    ∃ t : Fin cfg0.N, (cfg0.win 5).flush t = true ∧ i ∈ ((cfg0.win 5).blk t).view.set := by
  have hN : cfg0.N = 50 := N_0
  have hi0 : (i 0).val < 100000 := (i 0).isLt
  have hi1 : (i 1).val < 300 := (i 1).isLt
  obtain ⟨t, ht⟩ : ∃ t : Fin cfg0.N, t.val = (i 0).val / 2000 := ⟨⟨(i 0).val / 2000, by rw [hN]; omega⟩, rfl⟩
  obtain ⟨-, -, -, -, -, -, -, -, -, -, e50, e51⟩ := idx0 t
  refine ⟨t, flush0_5 t, ?_⟩
  rw [mem_blk0]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 300 ≤ (i 1).val ∧ (i 1).val < win0_5.index t (1 : Fin 2) * 300 + 300; omega

/-- After region 0 its output array holds the two clamped dense layers of the array of aggregated rows it was
    entered with. -/
theorem region0_value (c : Dev nD) :
    (dat0 V c).arrAt 5 cfg0.N = twoLayers (V c main_v38) (V c main_arg6) (V c main_v39) (V c main_arg8) (V c main_v40) :=
  (dat0 V c).arrAt_eq_of_cover 5 _ (fun t _ => flushed0 V c t) (cover0)

/-! ## Region 1: the node-update kernel over 50 blocks of 2000 rows -/

/-- The printed index maps of region 1, decided over its 50 grid points: the row-block windows (the input rows and the
    output) sit at block (t, 0), the weight and bias windows at block (0, 0). -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The first weight matrix's block is the whole matrix at every point. -/
theorem iblk1_1 (c : Dev nD) (t : Fin cfg1.N) : (iblk1 V c 1 t : S300x600.Idx → EReal) = V c main_arg6 := by
  obtain ⟨-, -, e0, e1, -⟩ := idx1 t
  funext j
  show V c main_arg6 (((cfg1.win 1).blk t).view.emb j) = V c main_arg6 j
  refine congrArg _ ?_
  funext a; apply Fin.ext
  match a with
  | ⟨0, _⟩ => show win1_1.index t (0 : Fin 2) * 300 + 1 * (j 0).val = (j 0).val; omega
  | ⟨1, _⟩ => show win1_1.index t (1 : Fin 2) * 600 + 1 * (j 1).val = (j 1).val; omega

/-- The first bias row's block is the whole row. -/
theorem iblk1_2 (c : Dev nD) (t : Fin cfg1.N) : (iblk1 V c 2 t : S1x600.Idx → EReal) = V c main_v53 := by
  obtain ⟨-, -, -, -, e0, e1, -⟩ := idx1 t
  funext j
  show V c main_v53 (((cfg1.win 2).blk t).view.emb j) = V c main_v53 j
  refine congrArg _ ?_
  funext a; apply Fin.ext
  match a with
  | ⟨0, _⟩ => show win1_2.index t (0 : Fin 2) * 1 + 1 * (j 0).val = (j 0).val; omega
  | ⟨1, _⟩ => show win1_2.index t (1 : Fin 2) * 600 + 1 * (j 1).val = (j 1).val; omega

/-- The second weight matrix's block is the whole matrix. -/
theorem iblk1_3 (c : Dev nD) (t : Fin cfg1.N) : (iblk1 V c 3 t : S600x300.Idx → EReal) = V c main_arg8 := by
  obtain ⟨-, -, -, -, -, -, e0, e1, -⟩ := idx1 t
  funext j
  show V c main_arg8 (((cfg1.win 3).blk t).view.emb j) = V c main_arg8 j
  refine congrArg _ ?_
  funext a; apply Fin.ext
  match a with
  | ⟨0, _⟩ => show win1_3.index t (0 : Fin 2) * 600 + 1 * (j 0).val = (j 0).val; omega
  | ⟨1, _⟩ => show win1_3.index t (1 : Fin 2) * 300 + 1 * (j 1).val = (j 1).val; omega

/-- The second bias row's block is the whole row. -/
theorem iblk1_4 (c : Dev nD) (t : Fin cfg1.N) : (iblk1 V c 4 t : S1x300.Idx → EReal) = V c main_v54 := by
  obtain ⟨-, -, -, -, -, -, -, -, e0, e1, -⟩ := idx1 t
  funext j
  show V c main_v54 (((cfg1.win 4).blk t).view.emb j) = V c main_v54 j
  refine congrArg _ ?_
  funext a; apply Fin.ext
  match a with
  | ⟨0, _⟩ => show win1_4.index t (0 : Fin 2) * 1 + 1 * (j 0).val = (j 0).val; omega
  | ⟨1, _⟩ => show win1_4.index t (1 : Fin 2) * 300 + 1 * (j 1).val = (j 1).val; omega

/-- What point t writes back is block t of the two clamped dense layers of the WHOLE array of aggregated rows: the
    point's input rows are rows 2000·t … 2000·t + 1999 of that array, its output block sits at the same rows, and an
    entry of the layers depends on its own row only. -/
theorem flushed1 (c : Dev nD) (t : Fin cfg1.N) :
    (dat1 V c).flushed 5 t = ((cfg1.win 5).blk t).view.read (Elt Ideal)
      (twoLayers (V c main_v52) (V c main_arg6) (V c main_v53) (V c main_arg8) (V c main_v54)) := by
  show (cfg1.win 5).cut (grid1.coords t) ((dat1 V c).after 5 t) = _
  rw [after1_5]
  unfold out1_5
  rw [View.canon_unit_zero hz]
  simp only [View.ld_unit_zero (S := S2000x300) hz, View.ld_unit_zero (S := S300x600) hz,
    View.ld_unit_zero (S := S1x600) hz, View.ld_unit_zero (S := S600x300) hz, View.ld_unit_zero (S := S1x300) hz]
  rw [pay1_eq, iblk1_1, iblk1_2, iblk1_3, iblk1_4]
  obtain ⟨e00, e01, -, -, -, -, -, -, -, -, e50, e51⟩ := idx1 t
  funext y
  show twoLayers (iblk1 V c 0 t) (V c main_arg6) (V c main_v53) (V c main_arg8) (V c main_v54) y
    = twoLayers (V c main_v52) (V c main_arg6) (V c main_v53) (V c main_arg8) (V c main_v54) (((cfg1.win 5).blk t).view.emb y)
  refine twoLayers_rows _ _ _ _ _ _ y _ (fun c' => ?_) ?_
  · show V c main_v52 (((cfg1.win 0).blk t).view.emb (ValueIdx.ix2 (⟨(y 0).val, ValueIdx.idx2_lt0 y⟩ : Fin 2000) c')) = V c main_v52 _
    refine congrArg _ ?_
    funext a; apply Fin.ext
    match a with
    | ⟨0, _⟩ => show win1_0.index t (0 : Fin 2) * 2000 + 1 * (y 0).val = win1_5.index t (0 : Fin 2) * 2000 + 1 * (y 0).val; omega
    | ⟨1, _⟩ => show win1_0.index t (1 : Fin 2) * 300 + 1 * c'.val = c'.val; omega
  · show (y 1).val = win1_5.index t (1 : Fin 2) * 300 + 1 * (y 1).val; omega

/-- An index of the output array is in point t's block iff each coordinate is in the block's range on its axis. -/
theorem mem_blk1 (t : Fin cfg1.N) (i : S100000x300.Idx) :
    i ∈ ((cfg1.win 5).blk t).view.set ↔ ∀ a : Fin 2, win1_5.index t a * S2000x300.size a ≤ (i a).val ∧ (i a).val < win1_5.index t a * S2000x300.size a + S2000x300.size a := by
  show i ∈ ((View.whole main_v55).slice (win1_5.rect t)).set ↔ _
  rw [View.set_slice_whole, Rect.mem_set_unit]
  exact Iff.rfl

/-- Row r of the output array is written by point r / 2000: the 50 blocks of 2000 rows tile the 100000 rows. -/
theorem cover1 (i : S100000x300.Idx) :
    ∃ t : Fin cfg1.N, (cfg1.win 5).flush t = true ∧ i ∈ ((cfg1.win 5).blk t).view.set := by
  have hN : cfg1.N = 50 := N_1
  have hi0 : (i 0).val < 100000 := (i 0).isLt
  have hi1 : (i 1).val < 300 := (i 1).isLt
  obtain ⟨t, ht⟩ : ∃ t : Fin cfg1.N, t.val = (i 0).val / 2000 := ⟨⟨(i 0).val / 2000, by rw [hN]; omega⟩, rfl⟩
  obtain ⟨-, -, -, -, -, -, -, -, -, -, e50, e51⟩ := idx1 t
  refine ⟨t, flush1_5 t, ?_⟩
  rw [mem_blk1]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 300 ≤ (i 1).val ∧ (i 1).val < win1_5.index t (1 : Fin 2) * 300 + 300; omega

/-- After region 1 its output array holds the two clamped dense layers of the array of aggregated rows it was
    entered with. -/
theorem region1_value (c : Dev nD) :
    (dat1 V c).arrAt 5 cfg1.N = twoLayers (V c main_v52) (V c main_arg6) (V c main_v53) (V c main_arg8) (V c main_v54) :=
  (dat1 V c).arrAt_eq_of_cover 5 _ (fun t _ => flushed1 V c t) (cover1)

/-! ## Region 2: the projection kernel, one point -/

/-- The printed index maps of region 2 at its one point: every window at block (0, 0). -/
theorem idx2 : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

/-- The pooled rows' block is the whole array. -/
theorem iblk2_0 (c : Dev nD) (t : Fin cfg2.N) : (iblk2 V c 0 t : S2048x300.Idx → EReal) = V c main_v58 := by
  obtain ⟨e0, e1, -⟩ := idx2 t
  funext j
  show V c main_v58 (((cfg2.win 0).blk t).view.emb j) = V c main_v58 j
  refine congrArg _ ?_
  funext a; apply Fin.ext
  match a with
  | ⟨0, _⟩ => show win2_0.index t (0 : Fin 2) * 2048 + 1 * (j 0).val = (j 0).val; omega
  | ⟨1, _⟩ => show win2_0.index t (1 : Fin 2) * 300 + 1 * (j 1).val = (j 1).val; omega

/-- The weight matrix's block is the whole matrix. -/
theorem iblk2_1 (c : Dev nD) (t : Fin cfg2.N) : (iblk2 V c 1 t : S300x300.Idx → EReal) = V c main_arg10 := by
  obtain ⟨-, -, e0, e1, -⟩ := idx2 t
  funext j
  show V c main_arg10 (((cfg2.win 1).blk t).view.emb j) = V c main_arg10 j
  refine congrArg _ ?_
  funext a; apply Fin.ext
  match a with
  | ⟨0, _⟩ => show win2_1.index t (0 : Fin 2) * 300 + 1 * (j 0).val = (j 0).val; omega
  | ⟨1, _⟩ => show win2_1.index t (1 : Fin 2) * 300 + 1 * (j 1).val = (j 1).val; omega

/-- The bias row's block is the whole row. -/
theorem iblk2_2 (c : Dev nD) (t : Fin cfg2.N) : (iblk2 V c 2 t : S1x300.Idx → EReal) = V c main_v59 := by
  obtain ⟨-, -, -, -, e0, e1, -⟩ := idx2 t
  funext j
  show V c main_v59 (((cfg2.win 2).blk t).view.emb j) = V c main_v59 j
  refine congrArg _ ?_
  funext a; apply Fin.ext
  match a with
  | ⟨0, _⟩ => show win2_2.index t (0 : Fin 2) * 1 + 1 * (j 0).val = (j 0).val; omega
  | ⟨1, _⟩ => show win2_2.index t (1 : Fin 2) * 300 + 1 * (j 1).val = (j 1).val; omega

/-- The one point writes back the affine layer of the whole pooled array, through the block that is the whole array. -/
theorem flushed2 (c : Dev nD) (t : Fin cfg2.N) :
    (dat2 V c).flushed 3 t = ((cfg2.win 3).blk t).view.read (Elt Ideal)
      (rowAffine (V c main_v58) (V c main_arg10) (V c main_v59)) := by
  show (cfg2.win 3).cut (grid2.coords t) ((dat2 V c).after 3 t) = _
  rw [after2_3]
  unfold out2_3
  rw [View.canon_unit_zero hz]
  simp only [View.ld_unit_zero (S := S2048x300) hz, View.ld_unit_zero (S := S300x300) hz, View.ld_unit_zero (S := S1x300) hz]
  rw [pay2_eq, iblk2_0, iblk2_1, iblk2_2]
  obtain ⟨-, -, -, -, -, -, e30, e31⟩ := idx2 t
  funext y
  show rowAffine (V c main_v58) (V c main_arg10) (V c main_v59) y
    = rowAffine (V c main_v58) (V c main_arg10) (V c main_v59) (((cfg2.win 3).blk t).view.emb y)
  refine congrArg _ ?_
  funext a; apply Fin.ext
  match a with
  | ⟨0, _⟩ => show (y 0).val = win2_3.index t (0 : Fin 2) * 2048 + 1 * (y 0).val; omega
  | ⟨1, _⟩ => show (y 1).val = win2_3.index t (1 : Fin 2) * 300 + 1 * (y 1).val; omega

theorem mem_blk2 (t : Fin cfg2.N) (i : S2048x300.Idx) :
    i ∈ ((cfg2.win 3).blk t).view.set ↔ ∀ a : Fin 2, win2_3.index t a * S2048x300.size a ≤ (i a).val ∧ (i a).val < win2_3.index t a * S2048x300.size a + S2048x300.size a := by
  show i ∈ ((View.whole main_v60).slice (win2_3.rect t)).set ↔ _
  rw [View.set_slice_whole, Rect.mem_set_unit]
  exact Iff.rfl

/-- The one block covers the output array. -/
theorem cover2 (i : S2048x300.Idx) :
    ∃ t : Fin cfg2.N, (cfg2.win 3).flush t = true ∧ i ∈ ((cfg2.win 3).blk t).view.set := by
  have hi0 : (i 0).val < 2048 := (i 0).isLt
  have hi1 : (i 1).val < 300 := (i 1).isLt
  obtain ⟨-, -, -, -, -, -, e30, e31⟩ := idx2 t2_0
  refine ⟨t2_0, flush2_3 t2_0, ?_⟩
  rw [mem_blk2]
  intro a
  match a with
  | ⟨0, _⟩ => show win2_3.index t2_0 (0 : Fin 2) * 2048 ≤ (i 0).val ∧ (i 0).val < win2_3.index t2_0 (0 : Fin 2) * 2048 + 2048; omega
  | ⟨1, _⟩ => show win2_3.index t2_0 (1 : Fin 2) * 300 ≤ (i 1).val ∧ (i 1).val < win2_3.index t2_0 (1 : Fin 2) * 300 + 300; omega

/-- After region 2 its output array holds the affine layer of the pooled array it was entered with. -/
theorem region2_value (c : Dev nD) :
    (dat2 V c).arrAt 3 cfg2.N = rowAffine (V c main_v58) (V c main_arg10) (V c main_v59) :=
  (dat2 V c).arrAt_eq_of_cover 3 _ (fun t _ => flushed2 V c t) (cover2)

end Cert.KernelIdeal.Regions

end
-- ==== Proof.KernelRun.lean ====
/-
  The kernel program's run with its result named. Every weakly fair execution of the program terminates without a
  fault; the argument arrays end as launched; and the result array ends holding what the buffer contents after the last
  region (the fold of the host stretches and the three regions from the launch memory) give at the result's buffer.
  The launch is the segments' launch over the program's three regions and three host stretches, its last thread
  state read against the final state at the result buffer as well as at the arguments.
-/
import proofs.«120658_j16338055594643_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v60) = W6 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v60 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.KernelIdeal.RunValue

end
-- ==== Proof.Network.lean ====
/-
  The whole network as one function of its twelve argument arrays, on the extended reals.

  A node update aggregates the messages arriving at each node (the sender's row plus the message's embedding) and
  applies two dense layers with a clamp after each, the same weights for every node. The network is two node updates
  with the same weights and the same message embeddings, then a sum of the node rows of each graph, then one affine
  layer. Both programs are shown to compute `network` of their arguments.
-/
import proofs.«120658_j16338055594643_1_alg».proof.Proof.GraphOps
import proofs.«120658_j16338055594643_1_alg».proof.Proof.LibReluLayers

noncomputable section

namespace Cert.Network

open Cert.ReferenceIdeal Cert.GraphOps Idealize.ShloMosaic Cert.Lib.ReluLayers Cert.Lib.RowVector

/-- One node update: aggregate, then two clamped dense layers. -/
def nodeUpdate (h : FVec Ideal S100000x300 .f32) (ei : (⟨S2x200000, .i32⟩ : BufTy).Contents (Elt Ideal))
    (emb : FVec Ideal S300000x300 .f32) (W₁ : FVec Ideal S300x600 .f32) (b₁ : FVec Ideal S600 .f32)
    (W₂ : FVec Ideal S600x300 .f32) (b₂ : FVec Ideal S300 .f32) : FVec Ideal S100000x300 .f32 :=
  twoLayers (aggregate h ei emb) W₁ (asRow b₁) W₂ (asRow b₂)

/-- Two node updates, the pooling over graphs, the final affine layer. -/
def network (x : FVec Ideal S100000x300 .f32) (ei : (⟨S2x200000, .i32⟩ : BufTy).Contents (Elt Ideal))
    (ea : (⟨S200000x2, .i32⟩ : BufTy).Contents (Elt Ideal)) (batch : (⟨S100000, .i32⟩ : BufTy).Contents (Elt Ideal))
    (e1 : FVec Ideal S6x300 .f32) (e2 : FVec Ideal S3x300 .f32) (W₁ : FVec Ideal S300x600 .f32) (b₁ : FVec Ideal S600 .f32)
    (W₂ : FVec Ideal S600x300 .f32) (b₂ : FVec Ideal S300 .f32) (Wfc : FVec Ideal S300x300 .f32) (bfc : FVec Ideal S300 .f32) :
    FVec Ideal S2048x300 .f32 :=
  rowAffine (pool (nodeUpdate (nodeUpdate x ei (edgeEmb ea e1 e2) W₁ b₁ W₂ b₂) ei (edgeEmb ea e1 e2) W₁ b₁ W₂ b₂) batch)
    Wfc (asRow bfc)

end Cert.Network

end
-- ==== Proof.KernelValue.lean ====
/-
  The kernel program computes `network` of its arguments. The buffer contents after each segment are read in
  order: the first stretch aggregates the input features; the first region applies the two clamped dense layers to
  that array, so its output is the first node update; the second stretch aggregates that output, with the same
  senders, receivers and embeddings; the second region's output is the second node update; the third stretch pools it
  over the graphs; the projection region applies the affine layer.
-/
import proofs.«120658_j16338055594643_1_alg».proof.Proof.KernelHost
import proofs.«120658_j16338055594643_1_alg».proof.Proof.KernelRegions
import proofs.«120658_j16338055594643_1_alg».proof.Proof.KernelRun
import proofs.«120658_j16338055594643_1_alg».proof.Proof.Network

set_option maxRecDepth 16384

noncomputable section

namespace Cert.KernelIdeal.KValue

open Cert.KernelIdeal Cert.KernelIdeal.Gen Idealize.ShloMosaic Idealize.ShloMosaic.TcCoe Idealize.SL.Sem
open Cert.KernelIdeal.HostSide Cert.KernelIdeal.Regions Cert.GraphOps Cert.Network Cert.Lib.ReluLayers Cert.Lib.RowVector

variable (m : (ℓ : Loc nD τ sig) → Buf (Elt Ideal) ℓ) (ρ : Dev nD → PrngReg)

/-- After the first region its output array holds the first node update of the input features. -/
theorem W2_out (c : Dev nD) : W2 m ρ c (Proc.devRef .tc main_v41) = (nodeUpdate (m ((c : Thread nD τ).loc main_arg0)) (m ((c : Thread nD τ).loc main_arg1)) (edgeEmb (m ((c : Thread nD τ).loc main_arg2)) (m ((c : Thread nD τ).loc main_arg4)) (m ((c : Thread nD τ).loc main_arg5))) (m ((c : Thread nD τ).loc main_arg6)) (m ((c : Thread nD τ).loc main_arg7)) (m ((c : Thread nD τ).loc main_arg8)) (m ((c : Thread nD τ).loc main_arg9))) := by
  refine (W2_arr m ρ c 5).trans ((region0_value (V1 m ρ) c).trans ?_)
  show twoLayers (W1 m ρ c (Proc.devRef .tc main_v38)) (W1 m ρ c (Proc.devRef .tc main_arg6)) (W1 m ρ c (Proc.devRef .tc main_v39)) (W1 m ρ c (Proc.devRef .tc main_arg8)) (W1 m ρ c (Proc.devRef .tc main_v40)) = _
  rw [W1_aggr, W1_arg6, W1_row1, W1_arg8, W1_row2]
  rfl

/-- After the second region its output array holds the second node update. -/
theorem W4_out (c : Dev nD) : W4 m ρ c (Proc.devRef .tc main_v55) = (nodeUpdate (nodeUpdate (m ((c : Thread nD τ).loc main_arg0)) (m ((c : Thread nD τ).loc main_arg1)) (edgeEmb (m ((c : Thread nD τ).loc main_arg2)) (m ((c : Thread nD τ).loc main_arg4)) (m ((c : Thread nD τ).loc main_arg5))) (m ((c : Thread nD τ).loc main_arg6)) (m ((c : Thread nD τ).loc main_arg7)) (m ((c : Thread nD τ).loc main_arg8)) (m ((c : Thread nD τ).loc main_arg9))) (m ((c : Thread nD τ).loc main_arg1)) (edgeEmb (m ((c : Thread nD τ).loc main_arg2)) (m ((c : Thread nD τ).loc main_arg4)) (m ((c : Thread nD τ).loc main_arg5))) (m ((c : Thread nD τ).loc main_arg6)) (m ((c : Thread nD τ).loc main_arg7)) (m ((c : Thread nD τ).loc main_arg8)) (m ((c : Thread nD τ).loc main_arg9))) := by
  refine (W4_arr m ρ c 5).trans ((region1_value (V3 m ρ) c).trans ?_)
  show twoLayers (W3 m ρ c (Proc.devRef .tc main_v52)) (W3 m ρ c (Proc.devRef .tc main_arg6)) (W3 m ρ c (Proc.devRef .tc main_v53)) (W3 m ρ c (Proc.devRef .tc main_arg8)) (W3 m ρ c (Proc.devRef .tc main_v54)) = _
  rw [W3_aggr, W3_arg6, W3_row1, W3_arg8, W3_row2, W2_out]
  rfl

/-- After the projection region the result array holds the network's value. -/
theorem W6_out (c : Dev nD) : W6 m ρ c (Proc.devRef .tc main_v60) = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W6_arr m ρ c 3).trans ((region2_value (V5 m ρ) c).trans ?_)
  show rowAffine (W5 m ρ c (Proc.devRef .tc main_v58)) (W5 m ρ c (Proc.devRef .tc main_arg10)) (W5 m ρ c (Proc.devRef .tc main_v59)) = _
  rw [W5_pool, W5_arg10, W5_row, W4_out]
  rfl

/-- The kernel program's run: the result array ends at `network` of the arguments, the arguments as launched. -/
theorem run : θ_run defs (onTc (τ := τ) (main (F := Ideal))) ⟨m, fun _ => 0, ρ⟩ (fun r => ∀ c : Dev nD,
      r.2.mem ((c.tc : Thread nD τ).loc main_v60) = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (W6_out m ρ c), (h c).2⟩)
    (Cert.KernelIdeal.RunValue.run_result (F := Ideal) m ρ)

end Cert.KernelIdeal.KValue

end
-- ==== Proof.RefValue.lean ====
/-
  The reference computes `network` of its arguments. Its run ends with its result at one composed term of the
  arguments; in that term the graph operations are exactly `aggregate`, `edgeEmb` and `pool`, each node update's dense
  layers are the host's spelling of `twoLayers` (dot_general, the bias vector broadcast to a row and to the matrix, the
  maximum with a broadcast zero), and the last two operations are the host's spelling of `rowAffine`.
-/
import proofs.«120658_j16338055594643_1_alg».proof.Proof.Gen.ReferenceIdeal.Run
import proofs.«120658_j16338055594643_1_alg».proof.Proof.Network

noncomputable section

namespace Cert.ReferenceIdeal.RefValue

open Cert.ReferenceIdeal Cert.ReferenceIdeal.Gen Cert.ReferenceIdeal.Value Idealize.ShloMosaic Idealize.ShloMosaic.TcCoe
open Cert.GraphOps Cert.Network Cert.Lib.ReluLayers Cert.Lib.RowVector

/-- The reference's spelling of the two dense layers of a node update. -/
def hostLayers (X : FVec Ideal S100000x300 .f32) (W₁ : FVec Ideal S300x600 .f32) (b₁ : FVec Ideal S600 .f32)
    (W₂ : FVec Ideal S600x300 .f32) (b₂ : FVec Ideal S300 .f32) : FVec Ideal S100000x300 .f32 :=
  maximumf (addf (Host.dotGeneral dot_S100000x600_S600x300_S100000x300_1_0_0_1_n_n none (maximumf (addf (Host.dotGeneral dot_S100000x300_S300x600_S100000x600_1_0_0_1_n_n none X W₁) (broadcastInDim S100000x600 ![0, 1] bcast_S1x600_S100000x600_0_1 (broadcastInDim S1x600 ![1] bcast_S600_S1x600_1 b₁))) (broadcastInDim S100000x600 ![] bcast_S_S100000x600 (constant S_ .f32 0x00000000#32))) W₂) (broadcastInDim S100000x300 ![0, 1] bcast_S1x300_S100000x300_0_1 (broadcastInDim S1x300 ![1] bcast_S300_S1x300_1 b₂))) (broadcastInDim S100000x300 ![] bcast_S_S100000x300 (constant S_ .f32 0x00000000#32))

theorem hostLayers_eq (X : FVec Ideal S100000x300 .f32) (W₁ : FVec Ideal S300x600 .f32) (b₁ : FVec Ideal S600 .f32)
    (W₂ : FVec Ideal S600x300 .f32) (b₂ : FVec Ideal S300 .f32) :
    hostLayers X W₁ b₁ W₂ b₂ = twoLayers X W₁ (asRow b₁) W₂ (asRow b₂) := by
  unfold hostLayers
  exact host_twoLayers dot_S100000x300_S300x600_S100000x600_1_0_0_1_n_n rfl rfl rfl rfl rfl rfl
    dot_S100000x600_S600x300_S100000x300_1_0_0_1_n_n rfl rfl rfl rfl rfl rfl
    bcast_S600_S1x600_1 bcast_S1x600_S100000x600_0_1 bcast_S_S100000x600
    bcast_S300_S1x300_1 bcast_S1x300_S100000x300_0_1 bcast_S_S100000x300 X W₁ b₁ W₂ b₂

variable (m : (ℓ : Loc nD τ sig) → Buf (Elt Ideal) ℓ)

set_option maxRecDepth 8192 in
/-- The run's composed term, with the graph operations and each node update's layers named. -/
theorem res_spelled (c : Dev nD) :
    res_main_v76 (F := Ideal) m c
      = addf (Host.dotGeneral (φ₁ := .f32) (φ₂ := .f32) dot_S2048x300_S300x300_S2048x300_1_0_0_1_n_n none
          (pool (hostLayers (aggregate (hostLayers (aggregate (m ((c.tc : Thread nD τ).loc main_arg0)) (m ((c.tc : Thread nD τ).loc main_arg1))
                  (edgeEmb (m ((c.tc : Thread nD τ).loc main_arg2)) (m ((c.tc : Thread nD τ).loc main_arg4)) (m ((c.tc : Thread nD τ).loc main_arg5))))
                (m ((c.tc : Thread nD τ).loc main_arg6)) (m ((c.tc : Thread nD τ).loc main_arg7)) (m ((c.tc : Thread nD τ).loc main_arg8)) (m ((c.tc : Thread nD τ).loc main_arg9)))
              (m ((c.tc : Thread nD τ).loc main_arg1))
              (edgeEmb (m ((c.tc : Thread nD τ).loc main_arg2)) (m ((c.tc : Thread nD τ).loc main_arg4)) (m ((c.tc : Thread nD τ).loc main_arg5))))
            (m ((c.tc : Thread nD τ).loc main_arg6)) (m ((c.tc : Thread nD τ).loc main_arg7)) (m ((c.tc : Thread nD τ).loc main_arg8)) (m ((c.tc : Thread nD τ).loc main_arg9)))
            (m ((c.tc : Thread nD τ).loc main_arg3)))
          (m ((c.tc : Thread nD τ).loc main_arg10)))
        (broadcastInDim S2048x300 ![0, 1] bcast_S1x300_S2048x300_0_1 (broadcastInDim S1x300 ![1] bcast_S300_S1x300_1 (m ((c.tc : Thread nD τ).loc main_arg11) : FVec Ideal S300 .f32))) := by
  unfold res_main_v76
  rfl

/-- The reference's result is `network` of its arguments. -/
theorem res_eq (c : Dev nD) :
    res_main_v76 (F := Ideal) m c
      = network (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11)) := by
  rw [res_spelled, hostLayers_eq, hostLayers_eq]
  exact host_rowAffine dot_S2048x300_S300x300_S2048x300_1_0_0_1_n_n rfl rfl rfl rfl rfl rfl
    bcast_S300_S1x300_1 bcast_S1x300_S2048x300_0_1 _ _ _

end Cert.ReferenceIdeal.RefValue

end
-- ==== Proof.lean ====
/-
  The certificate of a two-layer graph network with edge embeddings, per-graph pooling and a final projection: a
  program whose dense node updates and final projection are kernels, against a plain array reference.

  Both programs send, along every edge and from every node to itself, the sender's feature row plus an embedding of
  the edge's two attributes, add the messages arriving at each node, and apply to every node's sum two dense layers
  with a clamp after each; they do this twice with the same weights, add the node rows of each graph, and apply one
  affine layer. The graph operations (the message senders and receivers, the embedding look-ups, the two scatter-adds
  of messages, the pooling) are the same host operations on both sides and are never opened. The dense layers differ
  in spelling only: the kernel multiplies blocks of 2000 rows, narrowed to a shorter float format, into zero
  accumulators and adds a bias row it re-shaped from the bias vector, the reference multiplies the whole array and
  broadcasts the bias vector; on the extended reals narrowing is the identity, a product into zeros is the product, and
  a block of rows of a product (and of a bias and a clamp applied to it) is the same rows of the whole. No law that
  could fail at an infinity is used, so the finiteness of the inputs is never opened. The idealization rewrote no
  operation, so there is nothing to preserve.
-/
import proofs.«120658_j16338055594643_1_alg».proof.Defs
import proofs.«120658_j16338055594643_1_alg».proof.Proof.Gen.Kernel
import proofs.«120658_j16338055594643_1_alg».proof.Proof.Gen.Kernel.Frame
import proofs.«120658_j16338055594643_1_alg».proof.Proof.Gen.KernelIdeal
import proofs.«120658_j16338055594643_1_alg».proof.Proof.Gen.KernelIdeal.Frame
import proofs.«120658_j16338055594643_1_alg».proof.Proof.Gen.ReferenceIdeal
import proofs.«120658_j16338055594643_1_alg».proof.Proof.Gen.ReferenceIdeal.Run
import proofs.«120658_j16338055594643_1_alg».proof.Proof.Gen.Pre_finite_inputs
import proofs.«120658_j16338055594643_1_alg».proof.Proof.KernelValue
import proofs.«120658_j16338055594643_1_alg».proof.Proof.RefValue
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end with their result at `network` of their arguments, and the arguments agree. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.ReferenceIdeal.RefValue.res_eq m' c, h0, h1, h2, h3, h4, h5, h6, h7, h8, h9, h10, h11]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
